-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S128 .f32) (main_arg7 : FVec F S128x40 .f32) (main_arg8 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg7
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x40 .f32) (main_arg8 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩
abbrev S1x40 : Shape := ⟨2, ![1, 40]⟩
abbrev S50000x40 : Shape := ⟨2, ![50000, 40]⟩
abbrev S5000x40 : Shape := ⟨2, ![5000, 40]⟩

abbrev nBuf : Space → Nat
  | .hbm => 82
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .i1⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000, .f32⟩
  | .hbm, ⟨39, _⟩ => ⟨S_, .f32⟩
  | .hbm, ⟨40, _⟩ => ⟨S_, .f32⟩
  | .hbm, ⟨41, _⟩ => ⟨S50000, .f32⟩
  | .hbm, ⟨42, _⟩ => ⟨S50000, .f32⟩
  | .hbm, ⟨43, _⟩ => ⟨S50000x1, .f32⟩
  | .hbm, ⟨44, _⟩ => ⟨S50000x1, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S50000x128, .bf16⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .bf16⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S1x128, .f32⟩
  | .hbm, ⟨64, _⟩ => ⟨S50000x128, .bf16⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .bf16⟩
  | .hbm, ⟨74, _⟩ => ⟨S800000x128, .f32⟩
  | .hbm, ⟨75, _⟩ => ⟨S_, .f32⟩
  | .hbm, ⟨76, _⟩ => ⟨S50000x128, .f32⟩
  | .hbm, ⟨77, _⟩ => ⟨S800000x1, .i32⟩
  | .hbm, ⟨78, _⟩ => ⟨S50000x128, .f32⟩
  | .hbm, ⟨79, _⟩ => ⟨S1x128, .f32⟩
  | .hbm, ⟨80, _⟩ => ⟨S1x40, .f32⟩
  | .hbm, ⟨81, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S5000x128, .bf16⟩
  | .local _ .vmem, ⟨9, _⟩ => ⟨S5000x128, .bf16⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S128x128, .f32⟩
  | .local _ .vmem, ⟨15, _⟩ => ⟨S1x128, .f32⟩
  | .local _ .vmem, ⟨16, _⟩ => ⟨S128x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v9 : Ref sig .tc := ⟨.hbm, 25, rfl⟩
abbrev main_cst_4 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_6 : Ref sig .tc := ⟨.hbm, 32, rfl⟩
abbrev main_v14 : Ref sig .tc := ⟨.hbm, 33, rfl⟩
abbrev main_v15 : Ref sig .tc := ⟨.hbm, 34, rfl⟩
abbrev main_cst_7 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_8 : Ref sig .tc := ⟨.hbm, 39, rfl⟩
abbrev main_call1_v0 : Ref sig .tc := ⟨.hbm, 40, rfl⟩
abbrev main_call1_v1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c : Ref sig .tc := ⟨.hbm, 49, rfl⟩
abbrev main_v26 : Ref sig .tc := ⟨.hbm, 50, rfl⟩
abbrev main_v27 : Ref sig .tc := ⟨.hbm, 51, rfl⟩
abbrev main_c_9 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_10 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_11 : Ref sig .tc := ⟨.hbm, 65, rfl⟩
abbrev main_v39 : Ref sig .tc := ⟨.hbm, 66, rfl⟩
abbrev main_v40 : Ref sig .tc := ⟨.hbm, 67, rfl⟩
abbrev main_c_12 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_13 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bitsLt_bf16_f32 : FTy.bits .bf16 < FTy.bits .f32
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .bf16 = 32 ∨ (Rect.block (s := S50000x128) S5000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x40.size a ≤ S128x40.size a
  hwx1_4 : ∀ i : grid1.Coords, EltTy.bits .f32 = 32 ∨ (Rect.block (s := S128x40) S128x40.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x40.size a ≤ S1x40.size a
  hwx1_5 : ∀ i : grid1.Coords, EltTy.bits .f32 = 32 ∨ (Rect.block (s := S1x40) S1x40.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x40.size a ≤ S50000x40.size a
  hwx1_6 : ∀ i : grid1.Coords, EltTy.bits .f32 = 32 ∨ (Rect.block (s := S50000x40) S5000x40.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v36) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S1x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v52) S5000x40.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x40 : Shape := ⟨2, ![50000, 40]⟩
abbrev S1x40 : Shape := ⟨2, ![1, 40]⟩

abbrev nBuf : Space → Nat
  | .hbm => 133
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x128, .f32⟩
  | 4 => ⟨S128, .f32⟩
  | 5 => ⟨S128x128, .f32⟩
  | 6 => ⟨S128, .f32⟩
  | 7 => ⟨S128x40, .f32⟩
  | 8 => ⟨S40, .f32⟩
  | 9 => ⟨S_, .f32⟩
  | 10 => ⟨S800000, .f32⟩
  | 11 => ⟨S_, .f32⟩
  | 12 => ⟨S50000, .f32⟩
  | 13 => ⟨S800000x1, .i32⟩
  | 14 => ⟨S50000, .f32⟩
  | 15 => ⟨S_, .f32⟩
  | 16 => ⟨S50000, .f32⟩
  | 17 => ⟨S50000, .i1⟩
  | 18 => ⟨S_, .f32⟩
  | 19 => ⟨S50000, .f32⟩
  | 20 => ⟨S50000, .f32⟩
  | 21 => ⟨S50000, .f32⟩
  | 22 => ⟨S_, .f32⟩
  | 23 => ⟨S_, .f32⟩
  | 24 => ⟨S50000, .f32⟩
  | 25 => ⟨S50000, .f32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .i1⟩
  | 35 => ⟨S_, .f32⟩
  | 36 => ⟨S50000, .f32⟩
  | 37 => ⟨S50000, .f32⟩
  | 38 => ⟨S50000, .f32⟩
  | 39 => ⟨S_, .f32⟩
  | 40 => ⟨S_, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S_, .f32⟩
  | 56 => ⟨S50000x128, .f32⟩
  | 57 => ⟨S800000x1, .i32⟩
  | 58 => ⟨S50000x128, .f32⟩
  | 59 => ⟨S50000x1, .f32⟩
  | 60 => ⟨S50000x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S_, .f32⟩
  | 70 => ⟨S800000, .f32⟩
  | 71 => ⟨S_, .f32⟩
  | 72 => ⟨S50000, .f32⟩
  | 73 => ⟨S800000x1, .i32⟩
  | 74 => ⟨S50000, .f32⟩
  | 75 => ⟨S_, .f32⟩
  | 76 => ⟨S50000, .f32⟩
  | 77 => ⟨S50000, .i1⟩
  | 78 => ⟨S_, .f32⟩
  | 79 => ⟨S50000, .f32⟩
  | 80 => ⟨S50000, .f32⟩
  | 81 => ⟨S50000, .f32⟩
  | 82 => ⟨S_, .f32⟩
  | 83 => ⟨S_, .f32⟩
  | 84 => ⟨S50000, .f32⟩
  | 85 => ⟨S50000, .f32⟩
  | 86 => ⟨S_, .f32⟩
  | 87 => ⟨S800000, .f32⟩
  | 88 => ⟨S_, .f32⟩
  | 89 => ⟨S50000, .f32⟩
  | 90 => ⟨S800000x1, .i32⟩
  | 91 => ⟨S50000, .f32⟩
  | 92 => ⟨S_, .f32⟩
  | 93 => ⟨S50000, .f32⟩
  | 94 => ⟨S50000, .i1⟩
  | 95 => ⟨S_, .f32⟩
  | 96 => ⟨S50000, .f32⟩
  | 97 => ⟨S50000, .f32⟩
  | 98 => ⟨S50000, .f32⟩
  | 99 => ⟨S_, .f32⟩
  | 100 => ⟨S_, .f32⟩
  | 101 => ⟨S50000, .f32⟩
  | 102 => ⟨S50000, .f32⟩
  | 103 => ⟨S50000x1, .f32⟩
  | 104 => ⟨S50000x128, .f32⟩
  | 105 => ⟨S50000x128, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S50000x1, .f32⟩
  | 120 => ⟨S50000x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_1 (i : Nat) : BufTy := match i % 128 with
  | 0 => ⟨S50000x128, .f32⟩
  | 1 => ⟨S50000x40, .f32⟩
  | 2 => ⟨S1x40, .f32⟩
  | 3 => ⟨S50000x40, .f32⟩
  | 4 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v9 : Ref sig .tc := ⟨.hbm, 25, rfl⟩
abbrev main_cst_4 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_6 : Ref sig .tc := ⟨.hbm, 32, rfl⟩
abbrev main_v14 : Ref sig .tc := ⟨.hbm, 33, rfl⟩
abbrev main_v15 : Ref sig .tc := ⟨.hbm, 34, rfl⟩
abbrev main_cst_7 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_8 : Ref sig .tc := ⟨.hbm, 39, rfl⟩
abbrev main_call1_v0 : Ref sig .tc := ⟨.hbm, 40, rfl⟩
abbrev main_call1_v1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c : Ref sig .tc := ⟨.hbm, 46, rfl⟩
abbrev main_v23 : Ref sig .tc := ⟨.hbm, 47, rfl⟩
abbrev main_v24 : Ref sig .tc := ⟨.hbm, 48, rfl⟩
abbrev main_c_9 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_10 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call2_cst : Ref sig .tc := ⟨.hbm, 66, rfl⟩
abbrev main_call2_v0 : Ref sig .tc := ⟨.hbm, 67, rfl⟩
abbrev main_v40 : Ref sig .tc := ⟨.hbm, 68, rfl⟩
abbrev main_cst_11 : Ref sig .tc := ⟨.hbm, 69, rfl⟩
abbrev main_v41 : Ref sig .tc := ⟨.hbm, 70, rfl⟩
abbrev main_cst_12 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_13 : Ref sig .tc := ⟨.hbm, 75, rfl⟩
abbrev main_v45 : Ref sig .tc := ⟨.hbm, 76, rfl⟩
abbrev main_v46 : Ref sig .tc := ⟨.hbm, 77, rfl⟩
abbrev main_cst_14 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_15 : Ref sig .tc := ⟨.hbm, 82, rfl⟩
abbrev main_call3_v0 : Ref sig .tc := ⟨.hbm, 83, rfl⟩
abbrev main_call3_v1 : Ref sig .tc := ⟨.hbm, 84, rfl⟩
abbrev main_v50 : Ref sig .tc := ⟨.hbm, 85, rfl⟩
abbrev main_cst_16 : Ref sig .tc := ⟨.hbm, 86, rfl⟩
abbrev main_v51 : Ref sig .tc := ⟨.hbm, 87, rfl⟩
abbrev main_cst_17 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_18 : Ref sig .tc := ⟨.hbm, 92, rfl⟩
abbrev main_v55 : Ref sig .tc := ⟨.hbm, 93, rfl⟩
abbrev main_v56 : Ref sig .tc := ⟨.hbm, 94, rfl⟩
abbrev main_cst_19 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_20 : Ref sig .tc := ⟨.hbm, 99, rfl⟩
abbrev main_call4_v0 : Ref sig .tc := ⟨.hbm, 100, rfl⟩
abbrev main_call4_v1 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_c_21 : Ref sig .tc := ⟨.hbm, 106, rfl⟩
abbrev main_v64 : Ref sig .tc := ⟨.hbm, 107, rfl⟩
abbrev main_v65 : Ref sig .tc := ⟨.hbm, 108, rfl⟩
abbrev main_c_22 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_23 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_call5_cst : Ref sig .tc := ⟨.hbm, 126, rfl⟩
abbrev main_call5_v0 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KernelRun.lean ====
/-
  The idealized kernel's run with its RESULT NAMED. The frame certificate of this two-region program says where every
  buffer ends — at the last boundary's contents `W8`, the fold of the host stretches and of the two regions' write-backs
  from the launch memory — but its stated post keeps only the arguments. Here the same launch over the same segments is
  read once more at the result buffer: every weakly fair execution terminates with the result array at `W8` of its
  reference and the arguments as launched.
-/
import proofs.«159063_j12859132084712_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the argument arrays as launched. -/
theorem run_named : θ_run defs (onTc (τ := τ) (main (F := F))) ⟨m, fun _ => 0, ρ⟩ (fun r => ∀ c : Dev nD,
      r.2.mem ((c.tc : Thread nD τ).loc main_v52) = W8 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v52 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.Named

end
-- ==== Proof.LibKeepdims.lean ====
/-
  Layout operations of a two-axis block read at coordinates: the casts between a block [1, 1, a, b] and its matrix
  [a, b], and the column forms a row reduction kept as a column needs — a vector [a] cast to a column [a, 1], and a
  column [a, 1] broadcast along b lanes. Each is the general read-at-an-index lemma of the operation with both indices
  written by coordinates, the coordinates' arithmetic done once here.
-/
import Idealize.ShloMosaic.Lib.Pipeline.Value
import Idealize.ShloMosaic.Lib.ValueIdx

namespace Cert.LibKeepdims

open Idealize.ShloMosaic Idealize.ShloMosaic.ValueIdx

variable {α : Type}

/-- A [1, 1, a, b] block cast to the matrix [a, b] reads, at (i, j), the block at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A matrix [a, b] cast to the block [1, 1, a, b] reads, at (u, v, i, j), the matrix at (i, j), whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A vector [a] cast to the column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along b lanes reads, at (i, j), the column at (i, 0). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- So a vector [a] kept as a column and broadcast along b lanes reads, at (i, j), the vector at i. -/
theorem column_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (i : Fin a) (j : Fin b) :
    broadcastTo ⟨2, ![a, b]⟩ (shapeCast ⟨2, ![a, 1]⟩ x h₁) h₂ (ix2 i j) = x (ix1 i) :=
  (broadcastTo_a1_ab_apply _ h₂ i j).trans (shapeCast_a_a1_apply x h₁ i 0)

end Cert.LibKeepdims
-- ==== Proof.LibDenseLayer.lean ====
/-
  A dense layer with per-row scales, read at a row and a column, at the extended reals.

  Two arrangements of the same arithmetic are read here at an index (r, q) and found to be one function of the operands:
  the fused body of a row-block kernel — scale the rows of a block, multiply by a weight matrix on the matrix unit into a
  zero accumulator, add a bias row, clamp below at zero, then either scale the rows again or multiply by a second weight
  matrix and add a second bias row — and the same steps written as whole-array host operations (`dot_general`,
  `broadcast_in_dim` of the scale vectors and of the bias vectors). At the extended reals a change of float format is
  the identity and both products are the plain sum over the contracted coordinate, so no algebraic law is needed: both
  arrangements unfold to `hidAt` below, term by term.
-/
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws
import proofs.«159063_j12859132084712_2_alg».proof.Proof.LibKeepdims

noncomputable section

namespace Cert.LibDenseLayer

open Idealize.ShloMosaic Idealize.ShloMosaic.ValueIdx Cert.LibKeepdims

/-! ## The layout operations of the two arrangements, read at coordinates -/

section Layout
variable {α : Type}

/-- A vector [a] placed in dimension 0 of a column [a, 1] reads, at (i, u), the vector at i. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column [a, 1] placed in dimensions (0, 1) of [a, b] reads, at (i, j), the column at (i, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ => rfl

/-- A vector [b] placed in dimension 1 of a row [1, b] reads, at (u, j), the vector at j. -/
theorem broadcastInDim_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A row [1, b] placed in dimensions (0, 1) of [a, b] reads, at (i, j), the row at (0, j). -/
theorem broadcastInDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ => rfl
  | ⟨1, _⟩ =>
    show j.val = if b = 1 then 0 else j.val
    split
    · have := j.isLt; omega
    · rfl

end Layout

/-! ## The matrix unit's plain product into a zero accumulator -/

/-- The plain product of an m×k by a k×n matrix on the matrix unit, into the zero accumulator, read at (a, b), is the
    sum over the contracted coordinate of the products of the entries: the host's product of the same operands. -/
theorem matmul_plain_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  ((Ideal.matmul_constant_zero_apply (DotDims.plain m k n) prec A B (ix2 a b)).trans
    (Ideal.dotGeneral_apply (DotDims.plain m k n) prec .single A B (ix2 a b)).symm).trans
    (StackMember.dotGeneral_plain_apply prec A B a b)

/-! ## The layer, entry by entry -/

section Layer
variable {n d h c : ℕ}

/-- The hidden activation at row r and column q: the row of `A` scaled by its entry of the column `s`, multiplied by
    `W`, the bias row `b` added, clamped below at `z`. -/
def hidAt (A : (⟨2, ![n, d]⟩ : Shape).Idx → EReal) (s : (⟨2, ![n, 1]⟩ : Shape).Idx → EReal)
    (W : (⟨2, ![d, h]⟩ : Shape).Idx → EReal) (b : (⟨2, ![1, h]⟩ : Shape).Idx → EReal) (z : EReal) (r : Fin n) (q : Fin h) : EReal :=
  max ((∑ k : Fin d, (A (ix2 r k) * s (ix2 r (0 : Fin 1))) * W (ix2 k q)) + b (ix2 (0 : Fin 1) q)) z

/-- The hidden activation with each row scaled again by its entry of the column `u`. -/
def scaledLayer (A : (⟨2, ![n, d]⟩ : Shape).Idx → EReal) (s u : (⟨2, ![n, 1]⟩ : Shape).Idx → EReal)
    (W : (⟨2, ![d, h]⟩ : Shape).Idx → EReal) (b : (⟨2, ![1, h]⟩ : Shape).Idx → EReal) (z : EReal) :
    (⟨2, ![n, h]⟩ : Shape).Idx → EReal :=
  fun i => hidAt A s W b z (i 0) (i 1) * u (ix2 (i 0) (0 : Fin 1))

/-- The hidden activation multiplied by a second matrix `Wf`, the bias row `bf` added. -/
def classifiedLayer (A : (⟨2, ![n, d]⟩ : Shape).Idx → EReal) (s : (⟨2, ![n, 1]⟩ : Shape).Idx → EReal)
    (W : (⟨2, ![d, h]⟩ : Shape).Idx → EReal) (b : (⟨2, ![1, h]⟩ : Shape).Idx → EReal)
    (Wf : (⟨2, ![h, c]⟩ : Shape).Idx → EReal) (bf : (⟨2, ![1, c]⟩ : Shape).Idx → EReal) (z : EReal) :
    (⟨2, ![n, c]⟩ : Shape).Idx → EReal :=
  fun i => (∑ k : Fin h, hidAt A s W b z (i 0) k * Wf (ix2 k (i 1))) + bf (ix2 (0 : Fin 1) (i 1))

theorem scaledLayer_apply (A : (⟨2, ![n, d]⟩ : Shape).Idx → EReal) (s u : (⟨2, ![n, 1]⟩ : Shape).Idx → EReal)
    (W : (⟨2, ![d, h]⟩ : Shape).Idx → EReal) (b : (⟨2, ![1, h]⟩ : Shape).Idx → EReal) (z : EReal) (r : Fin n) (q : Fin h) :
    scaledLayer A s u W b z (ix2 r q) = hidAt A s W b z r q * u (ix2 r (0 : Fin 1)) := rfl

theorem classifiedLayer_apply (A : (⟨2, ![n, d]⟩ : Shape).Idx → EReal) (s : (⟨2, ![n, 1]⟩ : Shape).Idx → EReal)
    (W : (⟨2, ![d, h]⟩ : Shape).Idx → EReal) (b : (⟨2, ![1, h]⟩ : Shape).Idx → EReal)
    (Wf : (⟨2, ![h, c]⟩ : Shape).Idx → EReal) (bf : (⟨2, ![1, c]⟩ : Shape).Idx → EReal) (z : EReal) (r : Fin n) (q : Fin c) :
    classifiedLayer A s W b Wf bf z (ix2 r q) = (∑ k : Fin h, hidAt A s W b z r k * Wf (ix2 k q)) + bf (ix2 (0 : Fin 1) q) := rfl

end Layer

/-! ## The two arrangements -/

section Arrangements
variable {n d h c : ℕ}

/-- THE FUSED BODY's hidden activation: rows scaled by a column, rounded to bf16 (the identity here), multiplied on the
    matrix unit by the rounded weight into a zero accumulator, the bias row added, clamped below at the zero splat. -/
theorem fusedHidden_apply
    (x0 : FVec Ideal ⟨2, ![n, d]⟩ .f32) (x1 : FVec Ideal ⟨2, ![n, 1]⟩ .f32) (x3 : FVec Ideal ⟨2, ![d, h]⟩ .f32)
    (x4 : FVec Ideal ⟨2, ![1, h]⟩ .f32)
    (c0 : (⟨2, ![n, d]⟩ : Shape).ShapeCasts ⟨2, ![n, d]⟩) (c1 : (⟨2, ![n, 1]⟩ : Shape).ShapeCasts ⟨2, ![n, 1]⟩)
    (b1 : (⟨2, ![n, 1]⟩ : Shape).Broadcasts ⟨2, ![n, d]⟩) (lt : FTy.bits .bf16 < FTy.bits .f32)
    (c4 : (⟨2, ![1, h]⟩ : Shape).ShapeCasts ⟨2, ![1, h]⟩) (b4 : (⟨2, ![1, h]⟩ : Shape).Broadcasts ⟨2, ![n, h]⟩)
    (r : Fin n) (q : Fin h) :
    (maximumf (addf (matmul (DotDims.plain n d h) none
          (truncf .bf16 (mulf (shapeCast ⟨2, ![n, d]⟩ x0 c0) (broadcastTo ⟨2, ![n, d]⟩ (shapeCast ⟨2, ![n, 1]⟩ x1 c1) b1)) lt)
          (truncf .bf16 x3 lt) (constant ⟨2, ![n, h]⟩ .f32 0x00000000#32))
        (broadcastTo ⟨2, ![n, h]⟩ (shapeCast ⟨2, ![1, h]⟩ x4 c4) b4))
      (broadcast ⟨2, ![n, h]⟩ (Scalar.ofBits .f32 0x00000000#32)) : FVec Ideal ⟨2, ![n, h]⟩ .f32) (ix2 r q)
    = hidAt x0 x1 x3 x4 (Ideal.ofBits .f32 0x00000000#32) r q := by
  simp only [shapeCast_self]
  rw [maximumf_apply, addf_apply, broadcast_apply, broadcastTo_1b_ab_apply, matmul_plain_apply]
  unfold hidAt
  refine congrArg (max · _) (congrArg (· + x4 (ix2 (0 : Fin 1) q)) (Finset.sum_congr rfl fun k _ => ?_))
  rw [truncf_apply, truncf_apply, mulf_apply, broadcastTo_a1_ab_apply]

/-- THE FUSED BODY that scales the rows again by a second column and rounds the result to bf16. -/
theorem fusedScaled_apply
    (x0 : FVec Ideal ⟨2, ![n, d]⟩ .f32) (x1 x2 : FVec Ideal ⟨2, ![n, 1]⟩ .f32) (x3 : FVec Ideal ⟨2, ![d, h]⟩ .f32)
    (x4 : FVec Ideal ⟨2, ![1, h]⟩ .f32)
    (c0 : (⟨2, ![n, d]⟩ : Shape).ShapeCasts ⟨2, ![n, d]⟩) (c1 : (⟨2, ![n, 1]⟩ : Shape).ShapeCasts ⟨2, ![n, 1]⟩)
    (b1 : (⟨2, ![n, 1]⟩ : Shape).Broadcasts ⟨2, ![n, d]⟩) (lt : FTy.bits .bf16 < FTy.bits .f32)
    (c4 : (⟨2, ![1, h]⟩ : Shape).ShapeCasts ⟨2, ![1, h]⟩) (b4 : (⟨2, ![1, h]⟩ : Shape).Broadcasts ⟨2, ![n, h]⟩)
    (b2 : (⟨2, ![n, 1]⟩ : Shape).Broadcasts ⟨2, ![n, h]⟩) (r : Fin n) (q : Fin h) :
    (truncf .bf16 (mulf (maximumf (addf (matmul (DotDims.plain n d h) none
            (truncf .bf16 (mulf (shapeCast ⟨2, ![n, d]⟩ x0 c0) (broadcastTo ⟨2, ![n, d]⟩ (shapeCast ⟨2, ![n, 1]⟩ x1 c1) b1)) lt)
            (truncf .bf16 x3 lt) (constant ⟨2, ![n, h]⟩ .f32 0x00000000#32))
          (broadcastTo ⟨2, ![n, h]⟩ (shapeCast ⟨2, ![1, h]⟩ x4 c4) b4))
        (broadcast ⟨2, ![n, h]⟩ (Scalar.ofBits .f32 0x00000000#32)))
      (broadcastTo ⟨2, ![n, h]⟩ (shapeCast ⟨2, ![n, 1]⟩ x2 c1) b2)) lt : FVec Ideal ⟨2, ![n, h]⟩ .bf16) (ix2 r q)
    = scaledLayer x0 x1 x2 x3 x4 (Ideal.ofBits .f32 0x00000000#32) (ix2 r q) := by
  rw [truncf_apply, mulf_apply, fusedHidden_apply, broadcastTo_a1_ab_apply, shapeCast_self, scaledLayer_apply]

/-- THE FUSED BODY that rounds the hidden activation to bf16, multiplies it on the matrix unit by a second rounded weight
    into a zero accumulator and adds a second bias row. -/
theorem fusedClassified_apply
    (x0 : FVec Ideal ⟨2, ![n, d]⟩ .f32) (x1 : FVec Ideal ⟨2, ![n, 1]⟩ .f32) (x3 : FVec Ideal ⟨2, ![d, h]⟩ .f32)
    (x4 : FVec Ideal ⟨2, ![1, h]⟩ .f32) (x5 : FVec Ideal ⟨2, ![h, c]⟩ .f32) (x6 : FVec Ideal ⟨2, ![1, c]⟩ .f32)
    (c0 : (⟨2, ![n, d]⟩ : Shape).ShapeCasts ⟨2, ![n, d]⟩) (c1 : (⟨2, ![n, 1]⟩ : Shape).ShapeCasts ⟨2, ![n, 1]⟩)
    (b1 : (⟨2, ![n, 1]⟩ : Shape).Broadcasts ⟨2, ![n, d]⟩) (lt : FTy.bits .bf16 < FTy.bits .f32)
    (c4 : (⟨2, ![1, h]⟩ : Shape).ShapeCasts ⟨2, ![1, h]⟩) (b4 : (⟨2, ![1, h]⟩ : Shape).Broadcasts ⟨2, ![n, h]⟩)
    (c6 : (⟨2, ![1, c]⟩ : Shape).ShapeCasts ⟨2, ![1, c]⟩) (b6 : (⟨2, ![1, c]⟩ : Shape).Broadcasts ⟨2, ![n, c]⟩)
    (r : Fin n) (q : Fin c) :
    (addf (matmul (DotDims.plain n h c) none
        (truncf .bf16 (maximumf (addf (matmul (DotDims.plain n d h) none
              (truncf .bf16 (mulf (shapeCast ⟨2, ![n, d]⟩ x0 c0) (broadcastTo ⟨2, ![n, d]⟩ (shapeCast ⟨2, ![n, 1]⟩ x1 c1) b1)) lt)
              (truncf .bf16 x3 lt) (constant ⟨2, ![n, h]⟩ .f32 0x00000000#32))
            (broadcastTo ⟨2, ![n, h]⟩ (shapeCast ⟨2, ![1, h]⟩ x4 c4) b4))
          (broadcast ⟨2, ![n, h]⟩ (Scalar.ofBits .f32 0x00000000#32))) lt)
        (truncf .bf16 x5 lt) (constant ⟨2, ![n, c]⟩ .f32 0x00000000#32))
      (broadcastTo ⟨2, ![n, c]⟩ (shapeCast ⟨2, ![1, c]⟩ x6 c6) b6) : FVec Ideal ⟨2, ![n, c]⟩ .f32) (ix2 r q)
    = classifiedLayer x0 x1 x3 x4 x5 x6 (Ideal.ofBits .f32 0x00000000#32) (ix2 r q) := by
  rw [addf_apply, broadcastTo_1b_ab_apply, shapeCast_self x6, matmul_plain_apply, classifiedLayer_apply]
  refine congrArg (· + x6 (ix2 (0 : Fin 1) q)) (Finset.sum_congr rfl fun k _ => ?_)
  rw [truncf_apply, truncf_apply, fusedHidden_apply]

/-- THE HOST ARRANGEMENT's hidden activation: the rows scaled by a vector placed as a column and spread along the lanes,
    the host's product with the weight, the bias vector placed as a row and spread along the rows, clamped below at the
    zero constant spread over the array. -/
theorem hostHidden_apply
    (A : FVec Ideal ⟨2, ![n, d]⟩ .f32) (s : FVec Ideal ⟨1, ![n]⟩ .f32) (W : FVec Ideal ⟨2, ![d, h]⟩ .f32) (b : FVec Ideal ⟨1, ![h]⟩ .f32)
    (g1 : (⟨1, ![n]⟩ : Shape).BroadcastsInDim ⟨2, ![n, 1]⟩ ![0])
    (g2 : (⟨2, ![n, 1]⟩ : Shape).BroadcastsInDim ⟨2, ![n, d]⟩ ![0, 1])
    (g3 : (⟨1, ![h]⟩ : Shape).BroadcastsInDim ⟨2, ![1, h]⟩ ![1])
    (g4 : (⟨2, ![1, h]⟩ : Shape).BroadcastsInDim ⟨2, ![n, h]⟩ ![0, 1])
    (g5 : (⟨0, ![]⟩ : Shape).BroadcastsInDim ⟨2, ![n, h]⟩ ![])
    (c1 : (⟨1, ![n]⟩ : Shape).ShapeCasts ⟨2, ![n, 1]⟩) (c2 : (⟨1, ![h]⟩ : Shape).ShapeCasts ⟨2, ![1, h]⟩)
    (r : Fin n) (q : Fin h) :
    (maximumf (addf (Host.dotGeneral (DotDims.plain n d h) none
          (mulf A (broadcastInDim ⟨2, ![n, d]⟩ ![0, 1] g2 (broadcastInDim ⟨2, ![n, 1]⟩ ![0] g1 s))) W)
        (broadcastInDim ⟨2, ![n, h]⟩ ![0, 1] g4 (broadcastInDim ⟨2, ![1, h]⟩ ![1] g3 b)))
      (broadcastInDim ⟨2, ![n, h]⟩ ![] g5 (constant ⟨0, ![]⟩ .f32 0x00000000#32)) : FVec Ideal ⟨2, ![n, h]⟩ .f32) (ix2 r q)
    = hidAt A (shapeCast ⟨2, ![n, 1]⟩ s c1) W (shapeCast ⟨2, ![1, h]⟩ b c2) (Ideal.ofBits .f32 0x00000000#32) r q := by
  rw [maximumf_apply, addf_apply, StackMember.dotGeneral_plain_apply, broadcastInDim_1b_ab_apply, broadcastInDim_b_1b_apply]
  unfold hidAt
  rw [shapeCast_a_1a_apply]
  refine congrArg (max · _) (congrArg (· + b (ix1 q)) (Finset.sum_congr rfl fun k _ => ?_))
  rw [mulf_apply, broadcastInDim_a1_ab_apply, broadcastInDim_a_a1_apply, shapeCast_a_a1_apply]

/-- THE HOST ARRANGEMENT with the rows scaled again by a second vector: the same array as the fused body's. -/
theorem hostScaled_eq
    (A : FVec Ideal ⟨2, ![n, d]⟩ .f32) (s u : FVec Ideal ⟨1, ![n]⟩ .f32) (W : FVec Ideal ⟨2, ![d, h]⟩ .f32) (b : FVec Ideal ⟨1, ![h]⟩ .f32)
    (g1 : (⟨1, ![n]⟩ : Shape).BroadcastsInDim ⟨2, ![n, 1]⟩ ![0])
    (g2 : (⟨2, ![n, 1]⟩ : Shape).BroadcastsInDim ⟨2, ![n, d]⟩ ![0, 1])
    (g2' : (⟨2, ![n, 1]⟩ : Shape).BroadcastsInDim ⟨2, ![n, h]⟩ ![0, 1])
    (g3 : (⟨1, ![h]⟩ : Shape).BroadcastsInDim ⟨2, ![1, h]⟩ ![1])
    (g4 : (⟨2, ![1, h]⟩ : Shape).BroadcastsInDim ⟨2, ![n, h]⟩ ![0, 1])
    (g5 : (⟨0, ![]⟩ : Shape).BroadcastsInDim ⟨2, ![n, h]⟩ ![])
    (c1 : (⟨1, ![n]⟩ : Shape).ShapeCasts ⟨2, ![n, 1]⟩) (c2 : (⟨1, ![h]⟩ : Shape).ShapeCasts ⟨2, ![1, h]⟩) :
    (mulf (maximumf (addf (Host.dotGeneral (DotDims.plain n d h) none
            (mulf A (broadcastInDim ⟨2, ![n, d]⟩ ![0, 1] g2 (broadcastInDim ⟨2, ![n, 1]⟩ ![0] g1 s))) W)
          (broadcastInDim ⟨2, ![n, h]⟩ ![0, 1] g4 (broadcastInDim ⟨2, ![1, h]⟩ ![1] g3 b)))
        (broadcastInDim ⟨2, ![n, h]⟩ ![] g5 (constant ⟨0, ![]⟩ .f32 0x00000000#32)))
      (broadcastInDim ⟨2, ![n, h]⟩ ![0, 1] g2' (broadcastInDim ⟨2, ![n, 1]⟩ ![0] g1 u)) : FVec Ideal ⟨2, ![n, h]⟩ .f32)
    = scaledLayer A (shapeCast ⟨2, ![n, 1]⟩ s c1) (shapeCast ⟨2, ![n, 1]⟩ u c1) W (shapeCast ⟨2, ![1, h]⟩ b c2)
        (Ideal.ofBits .f32 0x00000000#32) := by
  funext i
  obtain ⟨r, q, rfl⟩ : ∃ (r : Fin n) (q : Fin h), i = ix2 r q := ⟨i 0, i 1, eq_ix2 i⟩
  rw [mulf_apply, hostHidden_apply A s W b g1 g2 g3 g4 g5 c1 c2, broadcastInDim_a1_ab_apply, broadcastInDim_a_a1_apply,
    scaledLayer_apply, shapeCast_a_a1_apply]

/-- THE HOST ARRANGEMENT followed by the host's product with a second weight and a second bias vector: the same array as
    the fused body's. -/
theorem hostClassified_eq
    (A : FVec Ideal ⟨2, ![n, d]⟩ .f32) (s : FVec Ideal ⟨1, ![n]⟩ .f32) (W : FVec Ideal ⟨2, ![d, h]⟩ .f32) (b : FVec Ideal ⟨1, ![h]⟩ .f32)
    (Wf : FVec Ideal ⟨2, ![h, c]⟩ .f32) (bf : FVec Ideal ⟨1, ![c]⟩ .f32)
    (g1 : (⟨1, ![n]⟩ : Shape).BroadcastsInDim ⟨2, ![n, 1]⟩ ![0])
    (g2 : (⟨2, ![n, 1]⟩ : Shape).BroadcastsInDim ⟨2, ![n, d]⟩ ![0, 1])
    (g3 : (⟨1, ![h]⟩ : Shape).BroadcastsInDim ⟨2, ![1, h]⟩ ![1])
    (g4 : (⟨2, ![1, h]⟩ : Shape).BroadcastsInDim ⟨2, ![n, h]⟩ ![0, 1])
    (g5 : (⟨0, ![]⟩ : Shape).BroadcastsInDim ⟨2, ![n, h]⟩ ![])
    (g6 : (⟨1, ![c]⟩ : Shape).BroadcastsInDim ⟨2, ![1, c]⟩ ![1])
    (g7 : (⟨2, ![1, c]⟩ : Shape).BroadcastsInDim ⟨2, ![n, c]⟩ ![0, 1])
    (c1 : (⟨1, ![n]⟩ : Shape).ShapeCasts ⟨2, ![n, 1]⟩) (c2 : (⟨1, ![h]⟩ : Shape).ShapeCasts ⟨2, ![1, h]⟩)
    (c3 : (⟨1, ![c]⟩ : Shape).ShapeCasts ⟨2, ![1, c]⟩) :
    (addf (Host.dotGeneral (DotDims.plain n h c) none
        (maximumf (addf (Host.dotGeneral (DotDims.plain n d h) none
              (mulf A (broadcastInDim ⟨2, ![n, d]⟩ ![0, 1] g2 (broadcastInDim ⟨2, ![n, 1]⟩ ![0] g1 s))) W)
            (broadcastInDim ⟨2, ![n, h]⟩ ![0, 1] g4 (broadcastInDim ⟨2, ![1, h]⟩ ![1] g3 b)))
          (broadcastInDim ⟨2, ![n, h]⟩ ![] g5 (constant ⟨0, ![]⟩ .f32 0x00000000#32))) Wf)
      (broadcastInDim ⟨2, ![n, c]⟩ ![0, 1] g7 (broadcastInDim ⟨2, ![1, c]⟩ ![1] g6 bf)) : FVec Ideal ⟨2, ![n, c]⟩ .f32)
    = classifiedLayer A (shapeCast ⟨2, ![n, 1]⟩ s c1) W (shapeCast ⟨2, ![1, h]⟩ b c2) Wf (shapeCast ⟨2, ![1, c]⟩ bf c3)
        (Ideal.ofBits .f32 0x00000000#32) := by
  funext i
  obtain ⟨r, q, rfl⟩ : ∃ (r : Fin n) (q : Fin c), i = ix2 r q := ⟨i 0, i 1, eq_ix2 i⟩
  rw [addf_apply, StackMember.dotGeneral_plain_apply, broadcastInDim_1b_ab_apply, broadcastInDim_b_1b_apply,
    classifiedLayer_apply, shapeCast_a_1a_apply]
  refine congrArg (· + bf (ix1 q)) (Finset.sum_congr rfl fun k _ => ?_)
  rw [hostHidden_apply A s W b g1 g2 g3 g4 g5 c1 c2]

end Arrangements

end Cert.LibDenseLayer

end
-- ==== Proof.RegionValues.lean ====
/-
  What each of the two row-block regions leaves in its result array, as ONE function of the arrays the region finds.

  Both regions cut the 50000 rows into ten blocks of 5000; point t stages rows 5000 t … 5000 t + 4999 of the aggregated
  features and of the scale columns, the whole weight matrices and bias rows, and writes the same rows of the result.
  Every entry of a layer depends on its own row of the features and of the scale columns only (and on whole weights), so a
  block of the result is the whole-array layer read through the block: the first region ends with `scaledLayer` of its
  operands, the second with `classifiedLayer` of its operands.
-/
import proofs.«159063_j12859132084712_2_alg».proof.Proof.Gen.KernelIdeal.Frame
import proofs.«159063_j12859132084712_2_alg».proof.Proof.LibDenseLayer
import Idealize.ShloMosaic.Lib.Pipeline.Value

set_option maxRecDepth 16384

noncomputable section

namespace Cert.KernelIdeal.Regions

open Cert.KernelIdeal Cert.KernelIdeal.Gen Cert.LibDenseLayer
open Idealize.ShloMosaic Idealize.ShloMosaic.TcCoe Idealize.ShloMosaic.ValueIdx Idealize.SL.Sem
open Idealize.ShloMosaic.Pipeline (Dat)

/-! ## A layer's entry depends on its own row only -/

section Rows
variable {n n' d h c : ℕ}

/-- `scaledLayer` of arrays that agree with others on one row (and on the weights' column) agrees there. -/
theorem scaledLayer_row (A : (⟨2, ![n, d]⟩ : Shape).Idx → EReal) (s u : (⟨2, ![n, 1]⟩ : Shape).Idx → EReal)
    (W : (⟨2, ![d, h]⟩ : Shape).Idx → EReal) (b : (⟨2, ![1, h]⟩ : Shape).Idx → EReal)
    (A' : (⟨2, ![n', d]⟩ : Shape).Idx → EReal) (s' u' : (⟨2, ![n', 1]⟩ : Shape).Idx → EReal)
    (W' : (⟨2, ![d, h]⟩ : Shape).Idx → EReal) (b' : (⟨2, ![1, h]⟩ : Shape).Idx → EReal) (z : EReal)
    (p : Fin n') (R : Fin n) (q : Fin h)
    (hA : ∀ k, A' (ix2 p k) = A (ix2 R k)) (hs : s' (ix2 p (0 : Fin 1)) = s (ix2 R (0 : Fin 1)))
    (hu : u' (ix2 p (0 : Fin 1)) = u (ix2 R (0 : Fin 1))) (hW : ∀ k, W' (ix2 k q) = W (ix2 k q))
    (hb : b' (ix2 (0 : Fin 1) q) = b (ix2 (0 : Fin 1) q)) :
    scaledLayer A' s' u' W' b' z (ix2 p q) = scaledLayer A s u W b z (ix2 R q) := by
  rw [scaledLayer_apply, scaledLayer_apply]
  unfold hidAt
  simp only [hA, hs, hu, hW, hb]

/-- `classifiedLayer` of arrays that agree with others on one row (and on the whole weights) agrees there. -/
theorem classifiedLayer_row (A : (⟨2, ![n, d]⟩ : Shape).Idx → EReal) (s : (⟨2, ![n, 1]⟩ : Shape).Idx → EReal)
    (W : (⟨2, ![d, h]⟩ : Shape).Idx → EReal) (b : (⟨2, ![1, h]⟩ : Shape).Idx → EReal)
    (Wf : (⟨2, ![h, c]⟩ : Shape).Idx → EReal) (bf : (⟨2, ![1, c]⟩ : Shape).Idx → EReal)
    (A' : (⟨2, ![n', d]⟩ : Shape).Idx → EReal) (s' : (⟨2, ![n', 1]⟩ : Shape).Idx → EReal)
    (W' : (⟨2, ![d, h]⟩ : Shape).Idx → EReal) (b' : (⟨2, ![1, h]⟩ : Shape).Idx → EReal)
    (Wf' : (⟨2, ![h, c]⟩ : Shape).Idx → EReal) (bf' : (⟨2, ![1, c]⟩ : Shape).Idx → EReal) (z : EReal)
    (p : Fin n') (R : Fin n) (q : Fin c)
    (hA : ∀ k, A' (ix2 p k) = A (ix2 R k)) (hs : s' (ix2 p (0 : Fin 1)) = s (ix2 R (0 : Fin 1)))
    (hW : W' = W) (hb : b' = b) (hWf : Wf' = Wf) (hbf : bf' = bf) :
    classifiedLayer A' s' W' b' Wf' bf' z (ix2 p q) = classifiedLayer A s W b Wf bf z (ix2 R q) := by
  subst hW hb hWf hbf
  rw [classifiedLayer_apply, classifiedLayer_apply]
  unfold hidAt
  simp only [hA, hs]

end Rows

/-! ## The two bodies' payloads -/

theorem hz : (![0, 0] : Fin 2 → Nat) = fun _ => 0 := funext fun a => by fin_cases a <;> rfl

/-- The zero both bodies clamp at. -/
abbrev zero : EReal := Ideal.ofBits .f32 0x00000000#32

/-- The first body's one store, at row p and column q of the block. -/
theorem pay0_apply (v0 : Vec Ideal S5000x128 .f32) (v2 : Vec Ideal S5000x1 .f32) (v7 : Vec Ideal S128x128 .f32)
    (v10 : Vec Ideal S1x128 .f32) (v16 : Vec Ideal S5000x1 .f32) (p : Fin 5000) (q : Fin 128) :
    k0_pay1 (F := Ideal) v0 v2 v7 v10 v16 (ix2 p q)
      = scaledLayer (n := 5000) (d := 128) (h := 128) v0 v2 v16 v7 v10 zero (ix2 p q) := by
  unfold k0_pay1
  exact fusedScaled_apply (n := 5000) (d := 128) (h := 128) v0 v2 v16 v7 v10 _ _ _ _ _ _ _ p q

/-- The second body's one store, at row p and column q of the block. -/
theorem pay1_apply (v0 : Vec Ideal S5000x128 .f32) (v2 : Vec Ideal S5000x1 .f32) (v7 : Vec Ideal S128x128 .f32)
    (v10 : Vec Ideal S1x128 .f32) (v17 : Vec Ideal S128x40 .f32) (v20 : Vec Ideal S1x40 .f32) (p : Fin 5000) (q : Fin 40) :
    k1_pay1 (F := Ideal) v0 v2 v7 v10 v17 v20 (ix2 p q)
      = classifiedLayer (n := 5000) (d := 128) (h := 128) (c := 40) v0 v2 v7 v10 v17 v20 zero (ix2 p q) := by
  unfold k1_pay1
  exact fusedClassified_apply (n := 5000) (d := 128) (h := 128) (c := 40) v0 v2 v7 v10 v17 v20 _ _ _ _ _ _ _ _ p q

/-! ## The blocks of the two regions, read off the arrays they find -/

section Blocks
variable (V : (c : Dev nD) → (b : Ref sig .tc) → Buf (Elt Ideal) ((c : Thread nD τ).loc b))

theorem idx0_0 : ∀ t : Fin cfg0.N, win0_0.index t (0 : Fin 2) = t.val ∧ win0_0.index t (1 : Fin 2) = 0 :=
  (by decide +kernel : ∀ t : Fin grid0.N, _)
/-- Region 0, window 0: block t of the aggregated features is rows 5000 t … of the array. -/
theorem blk0_feat (c : Dev nD) (t : Fin cfg0.N) (p : Fin 5000) (k : Fin 128) (R : Fin 50000) (hR : R.val = 5000 * t.val + p.val) :
    (iblk0 V c 0 t : Vec Ideal S5000x128 .f32) (ix2 p k) = (V c main_v36 : S50000x128.Idx → EReal) (ix2 R k) := by
  have e := idx0_0 t
  unfold iblk0
  rw [View.read_apply]
  show V c main_v36 _ = V c main_v36 _
  congr 1
  funext a
  apply Fin.ext
  match a with
  | ⟨0, _⟩ => show win0_0.index t 0 * 5000 + 1 * p.val = R.val; rw [e.1, hR]; omega
  | ⟨1, _⟩ => show win0_0.index t 1 * 128 + 1 * k.val = k.val; rw [e.2]; omega

theorem idx0_1 : ∀ t : Fin cfg0.N, win0_1.index t (0 : Fin 2) = t.val ∧ win0_1.index t (1 : Fin 2) = 0 :=
  (by decide +kernel : ∀ t : Fin grid0.N, _)
/-- Region 0, window 1: block t of the destination scale column is rows 5000 t … of the column. -/
theorem blk0_sdst (c : Dev nD) (t : Fin cfg0.N) (p : Fin 5000) (k : Fin 1) (R : Fin 50000) (hR : R.val = 5000 * t.val + p.val) :
    (iblk0 V c 1 t : Vec Ideal S5000x1 .f32) (ix2 p k) = (V c main_v21 : S50000x1.Idx → EReal) (ix2 R k) := by
  have e := idx0_1 t
  unfold iblk0
  rw [View.read_apply]
  show V c main_v21 _ = V c main_v21 _
  congr 1
  funext a
  apply Fin.ext
  match a with
  | ⟨0, _⟩ => show win0_1.index t 0 * 5000 + 1 * p.val = R.val; rw [e.1, hR]; omega
  | ⟨1, _⟩ => show win0_1.index t 1 * 1 + 1 * k.val = k.val; rw [e.2]; omega

theorem idx0_2 : ∀ t : Fin cfg0.N, win0_2.index t (0 : Fin 2) = t.val ∧ win0_2.index t (1 : Fin 2) = 0 :=
  (by decide +kernel : ∀ t : Fin grid0.N, _)
/-- Region 0, window 2: block t of the source scale column is rows 5000 t … of the column. -/
theorem blk0_ssrc (c : Dev nD) (t : Fin cfg0.N) (p : Fin 5000) (k : Fin 1) (R : Fin 50000) (hR : R.val = 5000 * t.val + p.val) :
    (iblk0 V c 2 t : Vec Ideal S5000x1 .f32) (ix2 p k) = (V c main_v20 : S50000x1.Idx → EReal) (ix2 R k) := by
  have e := idx0_2 t
  unfold iblk0
  rw [View.read_apply]
  show V c main_v20 _ = V c main_v20 _
  congr 1
  funext a
  apply Fin.ext
  match a with
  | ⟨0, _⟩ => show win0_2.index t 0 * 5000 + 1 * p.val = R.val; rw [e.1, hR]; omega
  | ⟨1, _⟩ => show win0_2.index t 1 * 1 + 1 * k.val = k.val; rw [e.2]; omega

theorem idx0_3 : ∀ t : Fin cfg0.N, win0_3.index t (0 : Fin 2) = 0 ∧ win0_3.index t (1 : Fin 2) = 0 :=
  (by decide +kernel : ∀ t : Fin grid0.N, _)
/-- Region 0, window 3: every point stages the whole weight matrix. -/
theorem blk0_w (c : Dev nD) (t : Fin cfg0.N) (p : Fin 128) (k : Fin 128) :
    (iblk0 V c 3 t : Vec Ideal S128x128 .f32) (ix2 p k) = (V c main_arg3 : S128x128.Idx → EReal) (ix2 p k) := by
  have e := idx0_3 t
  unfold iblk0
  rw [View.read_apply]
  show V c main_arg3 _ = V c main_arg3 _
  congr 1
  funext a
  apply Fin.ext
  match a with
  | ⟨0, _⟩ => show win0_3.index t 0 * 128 + 1 * p.val = p.val; rw [e.1]; omega
  | ⟨1, _⟩ => show win0_3.index t 1 * 128 + 1 * k.val = k.val; rw [e.2]; omega

theorem idx0_4 : ∀ t : Fin cfg0.N, win0_4.index t (0 : Fin 2) = 0 ∧ win0_4.index t (1 : Fin 2) = 0 :=
  (by decide +kernel : ∀ t : Fin grid0.N, _)
/-- Region 0, window 4: every point stages the whole bias row. -/
theorem blk0_b (c : Dev nD) (t : Fin cfg0.N) (p : Fin 1) (k : Fin 128) :
    (iblk0 V c 4 t : Vec Ideal S1x128 .f32) (ix2 p k) = (V c main_v37 : S1x128.Idx → EReal) (ix2 p k) := by
  have e := idx0_4 t
  unfold iblk0
  rw [View.read_apply]
  show V c main_v37 _ = V c main_v37 _
  congr 1
  funext a
  apply Fin.ext
  match a with
  | ⟨0, _⟩ => show win0_4.index t 0 * 1 + 1 * p.val = p.val; rw [e.1]; omega
  | ⟨1, _⟩ => show win0_4.index t 1 * 128 + 1 * k.val = k.val; rw [e.2]; omega

theorem idx1_0 : ∀ t : Fin cfg1.N, win1_0.index t (0 : Fin 2) = t.val ∧ win1_0.index t (1 : Fin 2) = 0 :=
  (by decide +kernel : ∀ t : Fin grid1.N, _)
/-- Region 1, window 0: block t of the aggregated features is rows 5000 t … of the array. -/
theorem blk1_feat (c : Dev nD) (t : Fin cfg1.N) (p : Fin 5000) (k : Fin 128) (R : Fin 50000) (hR : R.val = 5000 * t.val + p.val) :
    (iblk1 V c 0 t : Vec Ideal S5000x128 .f32) (ix2 p k) = (V c main_v49 : S50000x128.Idx → EReal) (ix2 R k) := by
  have e := idx1_0 t
  unfold iblk1
  rw [View.read_apply]
  show V c main_v49 _ = V c main_v49 _
  congr 1
  funext a
  apply Fin.ext
  match a with
  | ⟨0, _⟩ => show win1_0.index t 0 * 5000 + 1 * p.val = R.val; rw [e.1, hR]; omega
  | ⟨1, _⟩ => show win1_0.index t 1 * 128 + 1 * k.val = k.val; rw [e.2]; omega

theorem idx1_1 : ∀ t : Fin cfg1.N, win1_1.index t (0 : Fin 2) = t.val ∧ win1_1.index t (1 : Fin 2) = 0 :=
  (by decide +kernel : ∀ t : Fin grid1.N, _)
/-- Region 1, window 1: block t of the destination scale column is rows 5000 t … of the column. -/
theorem blk1_sdst (c : Dev nD) (t : Fin cfg1.N) (p : Fin 5000) (k : Fin 1) (R : Fin 50000) (hR : R.val = 5000 * t.val + p.val) :
    (iblk1 V c 1 t : Vec Ideal S5000x1 .f32) (ix2 p k) = (V c main_v21 : S50000x1.Idx → EReal) (ix2 R k) := by
  have e := idx1_1 t
  unfold iblk1
  rw [View.read_apply]
  show V c main_v21 _ = V c main_v21 _
  congr 1
  funext a
  apply Fin.ext
  match a with
  | ⟨0, _⟩ => show win1_1.index t 0 * 5000 + 1 * p.val = R.val; rw [e.1, hR]; omega
  | ⟨1, _⟩ => show win1_1.index t 1 * 1 + 1 * k.val = k.val; rw [e.2]; omega

theorem idx1_2 : ∀ t : Fin cfg1.N, win1_2.index t (0 : Fin 2) = 0 ∧ win1_2.index t (1 : Fin 2) = 0 :=
  (by decide +kernel : ∀ t : Fin grid1.N, _)
/-- Region 1, window 2: every point stages the whole weight matrix. -/
theorem blk1_w (c : Dev nD) (t : Fin cfg1.N) (p : Fin 128) (k : Fin 128) :
    (iblk1 V c 2 t : Vec Ideal S128x128 .f32) (ix2 p k) = (V c main_arg5 : S128x128.Idx → EReal) (ix2 p k) := by
  have e := idx1_2 t
  unfold iblk1
  rw [View.read_apply]
  show V c main_arg5 _ = V c main_arg5 _
  congr 1
  funext a
  apply Fin.ext
  match a with
  | ⟨0, _⟩ => show win1_2.index t 0 * 128 + 1 * p.val = p.val; rw [e.1]; omega
  | ⟨1, _⟩ => show win1_2.index t 1 * 128 + 1 * k.val = k.val; rw [e.2]; omega

theorem idx1_3 : ∀ t : Fin cfg1.N, win1_3.index t (0 : Fin 2) = 0 ∧ win1_3.index t (1 : Fin 2) = 0 :=
  (by decide +kernel : ∀ t : Fin grid1.N, _)
/-- Region 1, window 3: every point stages the whole bias row. -/
theorem blk1_b (c : Dev nD) (t : Fin cfg1.N) (p : Fin 1) (k : Fin 128) :
    (iblk1 V c 3 t : Vec Ideal S1x128 .f32) (ix2 p k) = (V c main_v50 : S1x128.Idx → EReal) (ix2 p k) := by
  have e := idx1_3 t
  unfold iblk1
  rw [View.read_apply]
  show V c main_v50 _ = V c main_v50 _
  congr 1
  funext a
  apply Fin.ext
  match a with
  | ⟨0, _⟩ => show win1_3.index t 0 * 1 + 1 * p.val = p.val; rw [e.1]; omega
  | ⟨1, _⟩ => show win1_3.index t 1 * 128 + 1 * k.val = k.val; rw [e.2]; omega

theorem idx1_4 : ∀ t : Fin cfg1.N, win1_4.index t (0 : Fin 2) = 0 ∧ win1_4.index t (1 : Fin 2) = 0 :=
  (by decide +kernel : ∀ t : Fin grid1.N, _)
/-- Region 1, window 4: every point stages the whole classifier matrix. -/
theorem blk1_wf (c : Dev nD) (t : Fin cfg1.N) (p : Fin 128) (k : Fin 40) :
    (iblk1 V c 4 t : Vec Ideal S128x40 .f32) (ix2 p k) = (V c main_arg7 : S128x40.Idx → EReal) (ix2 p k) := by
  have e := idx1_4 t
  unfold iblk1
  rw [View.read_apply]
  show V c main_arg7 _ = V c main_arg7 _
  congr 1
  funext a
  apply Fin.ext
  match a with
  | ⟨0, _⟩ => show win1_4.index t 0 * 128 + 1 * p.val = p.val; rw [e.1]; omega
  | ⟨1, _⟩ => show win1_4.index t 1 * 40 + 1 * k.val = k.val; rw [e.2]; omega

theorem idx1_5 : ∀ t : Fin cfg1.N, win1_5.index t (0 : Fin 2) = 0 ∧ win1_5.index t (1 : Fin 2) = 0 :=
  (by decide +kernel : ∀ t : Fin grid1.N, _)
/-- Region 1, window 5: every point stages the whole classifier bias row. -/
theorem blk1_bf (c : Dev nD) (t : Fin cfg1.N) (p : Fin 1) (k : Fin 40) :
    (iblk1 V c 5 t : Vec Ideal S1x40 .f32) (ix2 p k) = (V c main_v51 : S1x40.Idx → EReal) (ix2 p k) := by
  have e := idx1_5 t
  unfold iblk1
  rw [View.read_apply]
  show V c main_v51 _ = V c main_v51 _
  congr 1
  funext a
  apply Fin.ext
  match a with
  | ⟨0, _⟩ => show win1_5.index t 0 * 1 + 1 * p.val = p.val; rw [e.1]; omega
  | ⟨1, _⟩ => show win1_5.index t 1 * 40 + 1 * k.val = k.val; rw [e.2]; omega

/-! ## Region 0 -/

theorem idx0_5 : ∀ t : Fin cfg0.N, win0_5.index t (0 : Fin 2) = t.val ∧ win0_5.index t (1 : Fin 2) = 0 :=
  (by decide +kernel : ∀ t : Fin grid0.N, _)

/-- Region 0's result as one function of the arrays it finds: the aggregated features scaled by the destination column,
    through the first weight and bias, clamped at zero, scaled by the source column. -/
abbrev G0 (c : Dev nD) : S50000x128.Idx → EReal :=
  scaledLayer (n := 50000) (d := 128) (h := 128) (V c main_v36 : S50000x128.Idx → EReal) (V c main_v21 : S50000x1.Idx → EReal)
    (V c main_v20 : S50000x1.Idx → EReal) (V c main_arg3 : S128x128.Idx → EReal) (V c main_v37 : S1x128.Idx → EReal) zero

/-- WHAT POINT t WRITES BACK is block t of the layer of the arrays as the region finds them. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S5000x1) hz, View.ld_unit_zero (S := S128x128) hz, View.ld_unit_zero (S := S1x128) hz]
  funext j
  obtain ⟨p, q, rfl⟩ : ∃ (p : Fin 5000) (q : Fin 128), j = (ix2 p q : (⟨2, ![5000, 128]⟩ : Shape).Idx) :=
    ⟨j 0, j 1, eq_ix2 (n0 := 5000) (n1 := 128) j⟩
  have hN : cfg0.N = 10 := N_0
  have ht : t.val < 10 := by have := t.isLt; omega
  have hp : p.val < 5000 := p.isLt
  have e := idx0_5 t
  have hemb : ((cfg0.win 5).blk t).view.emb (ix2 p q) = (ix2 (⟨5000 * t.val + p.val, by omega⟩ : Fin 50000) q : S50000x128.Idx) := by
    funext a
    apply Fin.ext
    match a with
    | ⟨0, _⟩ => show win0_5.index t 0 * 5000 + 1 * p.val = 5000 * t.val + p.val; rw [e.1]; omega
    | ⟨1, _⟩ => show win0_5.index t 1 * 128 + 1 * q.val = q.val; rw [e.2]; omega
  rw [View.read_apply, hemb]
  refine (pay0_apply (iblk0 V c 0 t) (iblk0 V c 1 t) (iblk0 V c 3 t) (iblk0 V c 4 t) (iblk0 V c 2 t) p q).trans ?_
  exact scaledLayer_row _ _ _ _ _ _ _ _ _ _ zero p _ q (fun k => blk0_feat V c t p k _ rfl) (blk0_sdst V c t p 0 _ rfl) (blk0_ssrc V c t p 0 _ rfl) (fun k => blk0_w V c t k q) (blk0_b V c t 0 q)

/-- An index of the result array is in point t's block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v38).slice (win0_5.rect t)).set ↔ _
  rw [View.set_slice_whole, Rect.mem_set_unit]
  exact Iff.rfl

/-- The ten row blocks cover the result array: row r is in the block of point r / 5000. -/
theorem cover0 (i : S50000x128.Idx) :
    ∃ t : Fin cfg0.N, (cfg0.win 5).flush t = true ∧ i ∈ ((cfg0.win 5).blk t).view.set := by
  have hN : cfg0.N = 10 := N_0
  have hi0 : (i 0).val < 50000 := (i 0).isLt
  have hi1 : (i 1).val < 128 := (i 1).isLt
  refine ⟨⟨(i 0).val / 5000, by omega⟩, flush0_5 _, ?_⟩
  rw [mem_blk0]
  have e := idx0_5 ⟨(i 0).val / 5000, by omega⟩
  intro a
  match a with
  | ⟨0, _⟩ =>
    show win0_5.index _ (0 : Fin 2) * 5000 ≤ (i 0).val ∧ (i 0).val < win0_5.index _ (0 : Fin 2) * 5000 + 5000
    rw [e.1]
    show (i 0).val / 5000 * 5000 ≤ (i 0).val ∧ (i 0).val < (i 0).val / 5000 * 5000 + 5000
    omega
  | ⟨1, _⟩ =>
    show win0_5.index _ (1 : Fin 2) * 128 ≤ (i 1).val ∧ (i 1).val < win0_5.index _ (1 : Fin 2) * 128 + 128
    rw [e.2]
    omega

/-- THE RESULT ARRAY after the region: the layer of the arrays the region finds. -/
theorem final0 (c : Dev nD) : (dat0 V c).arrAt 5 cfg0.N = G0 V c :=
  (dat0 V c).arrAt_eq_of_cover 5 (G0 V c) (fun t _ => flushed0_eq V c t) (cover0)

/-! ## Region 1 -/

theorem idx1_6 : ∀ t : Fin cfg1.N, win1_6.index t (0 : Fin 2) = t.val ∧ win1_6.index t (1 : Fin 2) = 0 :=
  (by decide +kernel : ∀ t : Fin grid1.N, _)

/-- Region 1's result as one function of the arrays it finds: the aggregated features scaled by the destination column,
    through the second weight and bias, clamped at zero, then through the classifier's weight and bias. -/
abbrev G1 (c : Dev nD) : S50000x40.Idx → EReal :=
  classifiedLayer (n := 50000) (d := 128) (h := 128) (c := 40) (V c main_v49 : S50000x128.Idx → EReal) (V c main_v21 : S50000x1.Idx → EReal)
    (V c main_arg5 : S128x128.Idx → EReal) (V c main_v50 : S1x128.Idx → EReal) (V c main_arg7 : S128x40.Idx → EReal)
    (V c main_v51 : S1x40.Idx → EReal) zero

/-- WHAT POINT t WRITES BACK is block t of the layer of the arrays as the region finds them. -/
theorem flushed1_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S128x128) hz, View.ld_unit_zero (S := S1x128) hz, View.ld_unit_zero (S := S128x40) hz, View.ld_unit_zero (S := S1x40) hz]
  funext j
  obtain ⟨p, q, rfl⟩ : ∃ (p : Fin 5000) (q : Fin 40), j = (ix2 p q : (⟨2, ![5000, 40]⟩ : Shape).Idx) :=
    ⟨j 0, j 1, eq_ix2 (n0 := 5000) (n1 := 40) j⟩
  have hN : cfg1.N = 10 := N_1
  have ht : t.val < 10 := by have := t.isLt; omega
  have hp : p.val < 5000 := p.isLt
  have e := idx1_6 t
  have hemb : ((cfg1.win 6).blk t).view.emb (ix2 p q) = (ix2 (⟨5000 * t.val + p.val, by omega⟩ : Fin 50000) q : S50000x40.Idx) := by
    funext a
    apply Fin.ext
    match a with
    | ⟨0, _⟩ => show win1_6.index t 0 * 5000 + 1 * p.val = 5000 * t.val + p.val; rw [e.1]; omega
    | ⟨1, _⟩ => show win1_6.index t 1 * 40 + 1 * q.val = q.val; rw [e.2]; omega
  rw [View.read_apply, hemb]
  refine (pay1_apply (iblk1 V c 0 t) (iblk1 V c 1 t) (iblk1 V c 2 t) (iblk1 V c 3 t) (iblk1 V c 4 t) (iblk1 V c 5 t) p q).trans ?_
  exact classifiedLayer_row _ _ _ _ _ _ _ _ _ _ _ _ zero p _ q (fun k => blk1_feat V c t p k _ rfl) (blk1_sdst V c t p 0 _ rfl) (funext fun j => by rw [eq_ix2 j]; exact blk1_w V c t _ _) (funext fun j => by rw [eq_ix2 j]; exact blk1_b V c t _ _) (funext fun j => by rw [eq_ix2 j]; exact blk1_wf V c t _ _) (funext fun j => by rw [eq_ix2 j]; exact blk1_bf V c t _ _)

/-- An index of the result array is in point t's block iff each coordinate is in the block's range on its axis. -/
theorem mem_blk1 (t : Fin cfg1.N) (i : S50000x40.Idx) :
    i ∈ ((cfg1.win 6).blk t).view.set ↔ ∀ a : Fin 2, win1_6.index t a * S5000x40.size a ≤ (i a).val ∧ (i a).val < win1_6.index t a * S5000x40.size a + S5000x40.size a := by
  show i ∈ ((View.whole main_v52).slice (win1_6.rect t)).set ↔ _
  rw [View.set_slice_whole, Rect.mem_set_unit]
  exact Iff.rfl

/-- The ten row blocks cover the result array: row r is in the block of point r / 5000. -/
theorem cover1 (i : S50000x40.Idx) :
    ∃ t : Fin cfg1.N, (cfg1.win 6).flush t = true ∧ i ∈ ((cfg1.win 6).blk t).view.set := by
  have hN : cfg1.N = 10 := N_1
  have hi0 : (i 0).val < 50000 := (i 0).isLt
  have hi1 : (i 1).val < 40 := (i 1).isLt
  refine ⟨⟨(i 0).val / 5000, by omega⟩, flush1_6 _, ?_⟩
  rw [mem_blk1]
  have e := idx1_6 ⟨(i 0).val / 5000, by omega⟩
  intro a
  match a with
  | ⟨0, _⟩ =>
    show win1_6.index _ (0 : Fin 2) * 5000 ≤ (i 0).val ∧ (i 0).val < win1_6.index _ (0 : Fin 2) * 5000 + 5000
    rw [e.1]
    show (i 0).val / 5000 * 5000 ≤ (i 0).val ∧ (i 0).val < (i 0).val / 5000 * 5000 + 5000
    omega
  | ⟨1, _⟩ =>
    show win1_6.index _ (1 : Fin 2) * 40 ≤ (i 1).val ∧ (i 1).val < win1_6.index _ (1 : Fin 2) * 40 + 40
    rw [e.2]
    omega

/-- THE RESULT ARRAY after the region: the layer of the arrays the region finds. -/
theorem final1 (c : Dev nD) : (dat1 V c).arrAt 6 cfg1.N = G1 V c :=
  (dat1 V c).arrAt_eq_of_cover 6 (G1 V c) (fun t _ => flushed1_eq V c t) (cover1)

end Blocks

end Cert.KernelIdeal.Regions

end
-- ==== Proof.KernelHost.lean ====
/-
  The host side of the idealized kernel's program: what the stretches of host operations leave in the buffers the two
  regions stage, as functions of the argument arrays.

  Both regions read the destination scale column; the first also the source scale column, the features gathered along
  the edges' sources and summed at the edges' destinations, the first weight and bias; the second the first region's
  result gathered and summed along the same edges, the second weight and bias and the classifier's weight and bias. The
  gather, the scatter-add and the degree normalisation are never opened: each is named once here and carried as a
  function of its operands.
-/
import proofs.«159063_j12859132084712_2_alg».proof.Proof.Gen.KernelIdeal.Frame
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]

/-! ## The graph operations, named -/

/-- The number of edges whose index vector names each node: ones scattered and added at the indices. -/
def degree (idx : (⟨S800000, .i32⟩ : BufTy).Contents (Elt F)) : FVec F S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 idx)
    (broadcastInDim S800000 ![] bcast_S_S800000 (constant S_ .f32 0x3F800000#32))

/-- The degree normalisation: the inverse square root of the degree where it is positive, one elsewhere. -/
def invSqrtDeg (idx : (⟨S800000, .i32⟩ : BufTy).Contents (Elt F)) : FVec F S50000 .f32 :=
  select (cmpf .ogt (degree (F := F) idx) (broadcastInDim S50000 ![] bcast_S_S50000 (constant S_ .f32 0x00000000#32)))
    (Host.rsqrt (maximumf (degree (F := F) idx) (broadcastInDim S50000 ![] bcast_S_S50000 (constant S_ .f32 0x3F800000#32))))
    (broadcastInDim S50000 ![] bcast_S_S50000 (id (constant S_ .f32 0x3F800000#32)))

/-- The edges' source indices as a gather's index column, a negative index counted from the end. -/
def wrapped (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Message passing: the rows of `x` gathered at the edges' sources, widened, and summed at the edges' destinations. -/
def aggregate (x : FVec F S50000x128 .bf16) (src dst : (⟨S800000, .i32⟩ : BufTy).Contents (Elt F)) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (extf .f32 (Host.gather gather_S50000x128_S800000x1_S800000x128_1_0_n_n_0_1_1128 x (wrapped (F := F) src)) bitsLt_bf16_f32)

/-- The features scaled by the source normalisation and rounded to bf16: what the first gather reads. -/
def scaledFeatures (x : FVec F S50000x128 .f32) (src : (⟨S800000, .i32⟩ : BufTy).Contents (Elt F)) : FVec F S50000x128 .bf16 :=
  truncf .bf16 (mulf x (broadcastInDim S50000x128 ![0, 1] bcast_S50000x1_S50000x128_0_1
    (broadcastInDim S50000x1 ![0] bcast_S50000_S50000x1_0 (invSqrtDeg (F := F) src)))) bitsLt_bf16_f32

/-! ## The buffers at the two regions' entries -/

variable (m : (ℓ : Loc nD τ sig) → Buf (Elt F) ℓ) (ρ : Dev nD → PrngReg) (c : Dev nD)

/-- Unfolds the stretches' operation lists and reads one buffer after them. -/
local macro "host_value" : tactic =>
  `(tactic| (simp only [hostOps0, hostOps0_1, hostOps0_2, hostOps0_3, hostOps0_4, hostOps1]; after_results_simp))

/-- Region 0 finds the first aggregation of the scaled features in its window 0. -/
theorem V5_feat : V5 m ρ c main_v36
    = aggregate (scaledFeatures (m ((c : Thread nD τ).loc main_arg0)) (m ((c : Thread nD τ).loc main_arg1)))
        (m ((c : Thread nD τ).loc main_arg1)) (m ((c : Thread nD τ).loc main_arg2)) := by
  show StableHlo.after hostOps0_4 (StableHlo.after hostOps0_3 (StableHlo.after hostOps0_2 (StableHlo.after hostOps0_1
    (StableHlo.after hostOps0 (W0 m ρ c))))) (Proc.devRef .tc main_v36) = _
  host_value
  rfl

/-- Region 0 finds the destination normalisation, as a column, in its window 1. -/
theorem V5_sdst : V5 m ρ c main_v21
    = shapeCast S50000x1 (invSqrtDeg (m ((c : Thread nD τ).loc main_arg2))) shapeCasts_S50000_S50000x1 := by
  show StableHlo.after hostOps0_4 (StableHlo.after hostOps0_3 (StableHlo.after hostOps0_2 (StableHlo.after hostOps0_1
    (StableHlo.after hostOps0 (W0 m ρ c))))) (Proc.devRef .tc main_v21) = _
  host_value
  rfl

/-- Region 0 finds the source normalisation, as a column, in its window 2. -/
theorem V5_ssrc : V5 m ρ c main_v20
    = shapeCast S50000x1 (invSqrtDeg (m ((c : Thread nD τ).loc main_arg1))) shapeCasts_S50000_S50000x1 := by
  show StableHlo.after hostOps0_4 (StableHlo.after hostOps0_3 (StableHlo.after hostOps0_2 (StableHlo.after hostOps0_1
    (StableHlo.after hostOps0 (W0 m ρ c))))) (Proc.devRef .tc main_v20) = _
  host_value
  rfl

/-- Region 0 finds the first bias, as a row, in its window 4. -/
theorem V5_b : V5 m ρ c main_v37 = shapeCast S1x128 (m ((c : Thread nD τ).loc main_arg4)) shapeCasts_S128_S1x128 := by
  show StableHlo.after hostOps0_4 (StableHlo.after hostOps0_3 (StableHlo.after hostOps0_2 (StableHlo.after hostOps0_1
    (StableHlo.after hostOps0 (W0 m ρ c))))) (Proc.devRef .tc main_v37) = _
  host_value
  rfl

/-- No host operation before region 0 writes an argument array. -/
theorem W5_arg (r : Ref sig .tc)
    (hr : r = main_arg1 ∨ r = main_arg2 ∨ r = main_arg3 ∨ r = main_arg5 ∨ r = main_arg6 ∨ r = main_arg7 ∨ r = main_arg8) :
    W5 m ρ c (Proc.devRef .tc r) = m ((c : Thread nD τ).loc r) := by
  show StableHlo.after hostOps0_4 (StableHlo.after hostOps0_3 (StableHlo.after hostOps0_2 (StableHlo.after hostOps0_1
    (StableHlo.after hostOps0 (W0 m ρ c))))) (Proc.devRef .tc r) = _
  rcases hr with rfl | rfl | rfl | rfl | rfl | rfl | rfl <;> (host_value <;> rfl)

/-- Region 0 finds the first weight as launched in its window 3. -/
theorem V5_w : V5 m ρ c main_arg3 = m ((c : Thread nD τ).loc main_arg3) :=
  W5_arg m ρ c main_arg3 (Or.inr (Or.inr (Or.inl rfl)))

/-- Region 0 writes none of the argument arrays the later operations read. -/
theorem W6_arg (r : Ref sig .tc)
    (hr : r = main_arg1 ∨ r = main_arg2 ∨ r = main_arg5 ∨ r = main_arg6 ∨ r = main_arg7 ∨ r = main_arg8) :
    W6 m ρ c (Proc.devRef .tc r) = m ((c : Thread nD τ).loc r) := by
  refine (W6_of_ne m ρ c r ?_).trans (W5_arg m ρ c r ?_)
  · rcases hr with rfl | rfl | rfl | rfl | rfl | rfl <;> decide
  · rcases hr with h | h | h | h | h | h <;> simp [h]

/-- Region 1 finds, in its window 0, the aggregation of region 0's result along the same edges. -/
theorem V7_feat : V7 m ρ c main_v49
    = aggregate (W6 m ρ c (Proc.devRef .tc main_v38)) (m ((c : Thread nD τ).loc main_arg1)) (m ((c : Thread nD τ).loc main_arg2)) := by
  show StableHlo.after hostOps1 (W6 m ρ c) (Proc.devRef .tc main_v49) = _
  host_value
  rw [W6_arg m ρ c main_arg1 (Or.inl rfl), W6_arg m ρ c main_arg2 (Or.inr (Or.inl rfl))]
  rfl

/-- Region 1 finds the destination normalisation, as a column, in its window 1: nothing wrote it since region 0's entry. -/
theorem V7_sdst : V7 m ρ c main_v21
    = shapeCast S50000x1 (invSqrtDeg (m ((c : Thread nD τ).loc main_arg2))) shapeCasts_S50000_S50000x1 := by
  show StableHlo.after hostOps1 (W6 m ρ c) (Proc.devRef .tc main_v21) = _
  host_value
  exact ((W6_arr m ρ c 1).trans (((dat0 (V5 m ρ) c).arrAt_in 1 rfl _).trans (A_eq0 (V5 m ρ) c 1))).trans (V5_sdst m ρ c)

/-- Region 1 finds the second weight as launched in its window 2. -/
theorem V7_w : V7 m ρ c main_arg5 = m ((c : Thread nD τ).loc main_arg5) := by
  show StableHlo.after hostOps1 (W6 m ρ c) (Proc.devRef .tc main_arg5) = _
  host_value
  exact W6_arg m ρ c main_arg5 (Or.inr (Or.inr (Or.inl rfl)))

/-- Region 1 finds the second bias, as a row, in its window 3. -/
theorem V7_b : V7 m ρ c main_v50 = shapeCast S1x128 (m ((c : Thread nD τ).loc main_arg6)) shapeCasts_S128_S1x128 := by
  show StableHlo.after hostOps1 (W6 m ρ c) (Proc.devRef .tc main_v50) = _
  host_value
  rw [W6_arg m ρ c main_arg6 (Or.inr (Or.inr (Or.inr (Or.inl rfl))))]
  rfl

/-- Region 1 finds the classifier's weight as launched in its window 4. -/
theorem V7_wf : V7 m ρ c main_arg7 = m ((c : Thread nD τ).loc main_arg7) := by
  show StableHlo.after hostOps1 (W6 m ρ c) (Proc.devRef .tc main_arg7) = _
  host_value
  exact W6_arg m ρ c main_arg7 (Or.inr (Or.inr (Or.inr (Or.inr (Or.inl rfl)))))

/-- Region 1 finds the classifier's bias, as a row, in its window 5. -/
theorem V7_bf : V7 m ρ c main_v51 = shapeCast S1x40 (m ((c : Thread nD τ).loc main_arg8)) shapeCasts_S40_S1x40 := by
  show StableHlo.after hostOps1 (W6 m ρ c) (Proc.devRef .tc main_v51) = _
  host_value
  rw [W6_arg m ρ c main_arg8 (Or.inr (Or.inr (Or.inr (Or.inr (Or.inr rfl)))))]
  rfl

end Cert.KernelIdeal.HostSide

end
-- ==== Proof.RefValue.lean ====
/-
  The reference's result as the two dense layers over the two aggregations.

  The reference's run ends with its result at one long term of the arguments. Read from the inside out it is: the features
  scaled by the source normalisation, gathered along the edges' sources and summed at their destinations; that
  aggregation through the first layer in the host arrangement (scale by the destination normalisation, the product with
  the first weight, the bias, the clamp at zero) scaled by the source normalisation again; the same aggregation of that;
  and the second layer followed by the classifier's product and bias. The gather, the scatter-add and the normalisation
  are named and never opened; the two layers are the library's `scaledLayer` and `classifiedLayer` of their operands.
-/
import proofs.«159063_j12859132084712_2_alg».proof.Proof.RefRun
import proofs.«159063_j12859132084712_2_alg».proof.Proof.LibDenseLayer

set_option maxRecDepth 16384

noncomputable section

namespace Cert.ReferenceIdeal.RefSide

open Cert.ReferenceIdeal Cert.ReferenceIdeal.Gen Cert.LibDenseLayer
open Idealize.ShloMosaic Idealize.ShloMosaic.TcCoe Idealize.SL.Sem

variable {F : FTy → Type} [FloatOps F]

/-! ## The graph operations, named -/

/-- The number of edges whose index vector names each node: ones scattered and added at the indices. -/
def degree (idx : (⟨S800000, .i32⟩ : BufTy).Contents (Elt F)) : FVec F S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 idx)
    (broadcastInDim S800000 ![] bcast_S_S800000 (constant S_ .f32 0x3F800000#32))

/-- The degree normalisation: the inverse square root of the degree where it is positive, one elsewhere. -/
def invSqrtDeg (idx : (⟨S800000, .i32⟩ : BufTy).Contents (Elt F)) : FVec F S50000 .f32 :=
  select (cmpf (F := F) .ogt (degree (F := F) idx) (broadcastInDim S50000 ![] bcast_S_S50000 (constant S_ .f32 0x00000000#32)))
    (Host.rsqrt (maximumf (degree (F := F) idx) (broadcastInDim S50000 ![] bcast_S_S50000 (constant S_ .f32 0x3F800000#32))))
    (broadcastInDim S50000 ![] bcast_S_S50000 (id (constant S_ .f32 0x3F800000#32)))

/-- The edges' source indices as a gather's index column, a negative index counted from the end. -/
def wrapped (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Message passing: the rows of `x` gathered at the edges' sources and summed at the edges' destinations. -/
def aggregate (x : FVec F S50000x128 .f32) (src dst : (⟨S800000, .i32⟩ : BufTy).Contents (Elt F)) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 x (wrapped (F := F) src))

/-- A per-node vector spread along the 128 lanes of every row. -/
def spread (v : FVec F S50000 .f32) : FVec F S50000x128 .f32 :=
  broadcastInDim S50000x128 ![0, 1] bcast_S50000x1_S50000x128_0_1 (broadcastInDim S50000x1 ![0] bcast_S50000_S50000x1_0 v)

/-- The features scaled by the source normalisation: what the first gather reads. -/
def scaledFeatures (x : FVec F S50000x128 .f32) (src : (⟨S800000, .i32⟩ : BufTy).Contents (Elt F)) : FVec F S50000x128 .f32 :=
  mulf x (spread (invSqrtDeg (F := F) src))

/-- The first layer in the host arrangement, scaled again by the source normalisation. -/
def hostLayer1 (a : FVec F S50000x128 .f32) (src dst : (⟨S800000, .i32⟩ : BufTy).Contents (Elt F))
    (W : FVec F S128x128 .f32) (b : FVec F S128 .f32) : FVec F S50000x128 .f32 :=
  mulf (maximumf (addf (Host.dotGeneral dot_S50000x128_S128x128_S50000x128_1_0_0_1_n_n none
          (mulf a (spread (invSqrtDeg (F := F) dst))) W)
        (broadcastInDim S50000x128 ![0, 1] bcast_S1x128_S50000x128_0_1 (broadcastInDim S1x128 ![1] bcast_S128_S1x128_1 b)))
      (broadcastInDim S50000x128 ![] bcast_S_S50000x128 (constant S_ .f32 0x00000000#32)))
    (spread (invSqrtDeg (F := F) src))

/-- The second layer and the classifier in the host arrangement. -/
def hostLayer2 (a : FVec F S50000x128 .f32) (dst : (⟨S800000, .i32⟩ : BufTy).Contents (Elt F))
    (W : FVec F S128x128 .f32) (b : FVec F S128 .f32) (Wf : FVec F S128x40 .f32) (bf : FVec F S40 .f32) : FVec F S50000x40 .f32 :=
  addf (Host.dotGeneral dot_S50000x128_S128x40_S50000x40_1_0_0_1_n_n none
      (maximumf (addf (Host.dotGeneral dot_S50000x128_S128x128_S50000x128_1_0_0_1_n_n none
            (mulf a (spread (invSqrtDeg (F := F) dst))) W)
          (broadcastInDim S50000x128 ![0, 1] bcast_S1x128_S50000x128_0_1 (broadcastInDim S1x128 ![1] bcast_S128_S1x128_1 b)))
        (broadcastInDim S50000x128 ![] bcast_S_S50000x128 (constant S_ .f32 0x00000000#32))) Wf)
    (broadcastInDim S50000x40 ![0, 1] bcast_S1x40_S50000x40_0_1 (broadcastInDim S1x40 ![1] bcast_S40_S1x40_1 bf))

/-- The run's result term is the composition of the named pieces. -/
theorem res_composed (m : (ℓ : Loc nD τ sig) → Buf (Elt F) ℓ) (c : Dev nD) :
    Cert.ReferenceIdeal.ValueP.res_main_v85 m c
      = hostLayer2
          (aggregate
            (hostLayer1
              (aggregate (scaledFeatures (m ((c.tc : Thread nD τ).loc main_arg0)) (m ((c.tc : Thread nD τ).loc main_arg1)))
                (m ((c.tc : Thread nD τ).loc main_arg1)) (m ((c.tc : Thread nD τ).loc main_arg2)))
              (m ((c.tc : Thread nD τ).loc main_arg1)) (m ((c.tc : Thread nD τ).loc main_arg2))
              (m ((c.tc : Thread nD τ).loc main_arg3)) (m ((c.tc : Thread nD τ).loc main_arg4)))
            (m ((c.tc : Thread nD τ).loc main_arg1)) (m ((c.tc : Thread nD τ).loc main_arg2)))
          (m ((c.tc : Thread nD τ).loc main_arg2)) (m ((c.tc : Thread nD τ).loc main_arg5)) (m ((c.tc : Thread nD τ).loc main_arg6))
          (m ((c.tc : Thread nD τ).loc main_arg7)) (m ((c.tc : Thread nD τ).loc main_arg8)) := rfl

/-! ## The two layers, at the extended reals -/

/-- The zero both layers clamp at. -/
abbrev zero : EReal := Ideal.ofBits .f32 0x00000000#32

/-- The first layer of the host arrangement is `scaledLayer` of its operands, the normalisations as columns and the bias
    as a row. -/
theorem hostLayer1_eq (a : FVec Ideal S50000x128 .f32) (src dst : (⟨S800000, .i32⟩ : BufTy).Contents (Elt Ideal))
    (W : FVec Ideal S128x128 .f32) (b : FVec Ideal S128 .f32)
    (c1 : S50000.ShapeCasts S50000x1) (c2 : S128.ShapeCasts S1x128) :
    hostLayer1 a src dst W b
      = scaledLayer (n := 50000) (d := 128) (h := 128) a (shapeCast S50000x1 (invSqrtDeg dst) c1)
          (shapeCast S50000x1 (invSqrtDeg src) c1) W (shapeCast S1x128 b c2) zero := by
  unfold hostLayer1 spread
  exact hostScaled_eq (n := 50000) (d := 128) (h := 128) a (invSqrtDeg dst) (invSqrtDeg src) W b _ _ _ _ _ _ c1 c2

/-- The second layer and the classifier of the host arrangement are `classifiedLayer` of their operands. -/
theorem hostLayer2_eq (a : FVec Ideal S50000x128 .f32) (dst : (⟨S800000, .i32⟩ : BufTy).Contents (Elt Ideal))
    (W : FVec Ideal S128x128 .f32) (b : FVec Ideal S128 .f32) (Wf : FVec Ideal S128x40 .f32) (bf : FVec Ideal S40 .f32)
    (c1 : S50000.ShapeCasts S50000x1) (c2 : S128.ShapeCasts S1x128) (c3 : S40.ShapeCasts S1x40) :
    hostLayer2 a dst W b Wf bf
      = classifiedLayer (n := 50000) (d := 128) (h := 128) (c := 40) a (shapeCast S50000x1 (invSqrtDeg dst) c1) W
          (shapeCast S1x128 b c2) Wf (shapeCast S1x40 bf c3) zero := by
  unfold hostLayer2 spread
  exact hostClassified_eq (n := 50000) (d := 128) (h := 128) (c := 40) a (invSqrtDeg dst) W b Wf bf _ _ _ _ _ _ _ c1 c2 c3

end Cert.ReferenceIdeal.RefSide

end
-- ==== Proof.SameHostOps.lean ====
/-
  The reference's named host functions are the kernel program's.

  Each printed program carries its own copies of the shapes and of the gather's, the scatters' and the broadcasts'
  dimension records; the copies have the same fields. So the degree count, the degree normalisation, the wrapped source
  indices and the aggregation along the edges are the same functions in both programs, and the kernel's roundings to
  bf16 (before the gather) and back to f32 (after it) are the identity at the extended reals.
-/
import proofs.«159063_j12859132084712_2_alg».proof.Proof.KernelHost
import proofs.«159063_j12859132084712_2_alg».proof.Proof.RefValue

set_option maxRecDepth 16384

noncomputable section

namespace Cert.Proof.SameHostOps

open Idealize.ShloMosaic Idealize.ShloMosaic.TcCoe Idealize.SL.Sem
open Cert.ReferenceIdeal Cert.ReferenceIdeal.Gen

/-- A rounding to a narrower float format is the identity at the extended reals. -/
theorem truncf_id {s : Shape} {φ ψ : FTy} (x : FVec Ideal s φ) (h : ψ.bits < φ.bits) : (truncf ψ x h : FVec Ideal s ψ) = x := rfl

/-- A widening to a wider float format is the identity at the extended reals. -/
theorem extf_id {s : Shape} {φ ψ : FTy} (x : FVec Ideal s φ) (h : φ.bits < ψ.bits) : (extf ψ x h : FVec Ideal s ψ) = x := rfl

theorem degree_eq (i : (⟨S800000, .i32⟩ : BufTy).Contents (Elt Ideal)) :
    Cert.ReferenceIdeal.RefSide.degree (F := Ideal) i = Cert.KernelIdeal.HostSide.degree (F := Ideal) i := rfl

theorem wrapped_eq (i : (⟨S800000, .i32⟩ : BufTy).Contents (Elt Ideal)) :
    Cert.ReferenceIdeal.RefSide.wrapped (F := Ideal) i = Cert.KernelIdeal.HostSide.wrapped (F := Ideal) i := rfl

theorem invSqrtDeg_eq (i : (⟨S800000, .i32⟩ : BufTy).Contents (Elt Ideal)) :
    Cert.ReferenceIdeal.RefSide.invSqrtDeg (F := Ideal) i = Cert.KernelIdeal.HostSide.invSqrtDeg (F := Ideal) i := by
  unfold Cert.ReferenceIdeal.RefSide.invSqrtDeg Cert.KernelIdeal.HostSide.invSqrtDeg
  rw [degree_eq]

theorem spread_eq (v : FVec Ideal S50000 .f32) :
    Cert.ReferenceIdeal.RefSide.spread (F := Ideal) v
      = broadcastInDim Cert.KernelIdeal.S50000x128 ![0, 1] Cert.KernelIdeal.Gen.bcast_S50000x1_S50000x128_0_1
          (broadcastInDim Cert.KernelIdeal.S50000x1 ![0] Cert.KernelIdeal.Gen.bcast_S50000_S50000x1_0 v) := rfl

theorem scaledFeatures_eq (x : FVec Ideal S50000x128 .f32) (i : (⟨S800000, .i32⟩ : BufTy).Contents (Elt Ideal)) :
    Cert.ReferenceIdeal.RefSide.scaledFeatures (F := Ideal) x i = Cert.KernelIdeal.HostSide.scaledFeatures (F := Ideal) x i := by
  unfold Cert.ReferenceIdeal.RefSide.scaledFeatures Cert.KernelIdeal.HostSide.scaledFeatures
  rw [truncf_id, spread_eq, invSqrtDeg_eq]

theorem gather_eq (x : FVec Ideal S50000x128 .f32) (w : (⟨S800000x1, .i32⟩ : BufTy).Contents (Elt Ideal)) :
    Host.gather gather_S50000x128_S800000x1_S800000x128_1_0_n_n_0_1_1128 x w
      = Host.gather Cert.KernelIdeal.gather_S50000x128_S800000x1_S800000x128_1_0_n_n_0_1_1128 x w := rfl

theorem scatter_eq (z : FVec Ideal S50000x128 .f32) (i : (⟨S800000x1, .i32⟩ : BufTy).Contents (Elt Ideal))
    (u : FVec Ideal S800000x128 .f32) :
    Host.scatterAdd scatter_S50000x128_S800000x1_S800000x128_1_0_0_1 z i u
      = Host.scatterAdd Cert.KernelIdeal.scatter_S50000x128_S800000x1_S800000x128_1_0_0_1 z i u := rfl

theorem aggregate_eq (x : FVec Ideal S50000x128 .f32) (s d : (⟨S800000, .i32⟩ : BufTy).Contents (Elt Ideal)) :
    Cert.ReferenceIdeal.RefSide.aggregate (F := Ideal) x s d = Cert.KernelIdeal.HostSide.aggregate (F := Ideal) x s d := by
  unfold Cert.ReferenceIdeal.RefSide.aggregate Cert.KernelIdeal.HostSide.aggregate
  rw [extf_id, wrapped_eq, gather_eq, scatter_eq]

end Cert.Proof.SameHostOps

end
-- ==== Proof.Bridge.lean ====
/-
  The two programs end at one array.

  The idealized kernel's result is its second region's array: `classifiedLayer` of the second aggregation, which is taken
  of the first region's array, `scaledLayer` of the first aggregation. The reference's result term is the same two layers
  over the same two aggregations in the host arrangement. The degree normalisation, the gather and the scatter-add are
  the same named host functions of the same arguments on both sides, and the kernel's roundings to bf16 and back are the
  identity at the extended reals; so the two results are one term of the argument arrays.
-/
import proofs.«159063_j12859132084712_2_alg».proof.Proof.KernelRun
import proofs.«159063_j12859132084712_2_alg».proof.Proof.RegionValues
import proofs.«159063_j12859132084712_2_alg».proof.Proof.KernelHost
import proofs.«159063_j12859132084712_2_alg».proof.Proof.RefValue
import proofs.«159063_j12859132084712_2_alg».proof.Proof.SameHostOps

set_option maxRecDepth 16384

noncomputable section

namespace Cert.Proof.Bridge

open Idealize.ShloMosaic Idealize.ShloMosaic.TcCoe Idealize.SL.Sem Cert.LibDenseLayer

/-! ## The kernel's result -/

section Kernel
open Cert.KernelIdeal Cert.KernelIdeal.Gen Cert.KernelIdeal.HostSide

/-- The two layers over the two aggregations, in the kernel program's own host functions, of nine argument arrays. -/
def kernelSpec (x0 : FVec Ideal S50000x128 .f32) (x1 x2 : (⟨S800000, .i32⟩ : BufTy).Contents (Elt Ideal))
    (x3 : FVec Ideal S128x128 .f32) (x4 : FVec Ideal S128 .f32) (x5 : FVec Ideal S128x128 .f32) (x6 : FVec Ideal S128 .f32)
    (x7 : FVec Ideal S128x40 .f32) (x8 : FVec Ideal S40 .f32) : S50000x40.Idx → EReal :=
  classifiedLayer (n := 50000) (d := 128) (h := 128) (c := 40)
    (aggregate (F := Ideal)
      (scaledLayer (n := 50000) (d := 128) (h := 128) (aggregate (F := Ideal) (scaledFeatures x0 x1) x1 x2)
        (shapeCast S50000x1 (invSqrtDeg (F := Ideal) x2) shapeCasts_S50000_S50000x1)
        (shapeCast S50000x1 (invSqrtDeg (F := Ideal) x1) shapeCasts_S50000_S50000x1) x3
        (shapeCast S1x128 x4 shapeCasts_S128_S1x128) Regions.zero) x1 x2)
    (shapeCast S50000x1 (invSqrtDeg (F := Ideal) x2) shapeCasts_S50000_S50000x1) x5
    (shapeCast S1x128 x6 shapeCasts_S128_S1x128) x7 (shapeCast S1x40 x8 shapeCasts_S40_S1x40) Regions.zero

variable (m : (ℓ : Loc nD τ sig) → Buf (Elt Ideal) ℓ) (ρ : Dev nD → PrngReg)

/-- The first region's array: `scaledLayer` of the first aggregation. -/
theorem region0_result (c : Dev nD) : W6 m ρ c (Proc.devRef .tc main_v38)
    = scaledLayer (n := 50000) (d := 128) (h := 128)
        (aggregate (F := Ideal) (scaledFeatures (m ((c : Thread nD τ).loc main_arg0)) (m ((c : Thread nD τ).loc main_arg1)))
          (m ((c : Thread nD τ).loc main_arg1)) (m ((c : Thread nD τ).loc main_arg2)))
        (shapeCast S50000x1 (invSqrtDeg (F := Ideal) (m ((c : Thread nD τ).loc main_arg2))) shapeCasts_S50000_S50000x1)
        (shapeCast S50000x1 (invSqrtDeg (F := Ideal) (m ((c : Thread nD τ).loc main_arg1))) shapeCasts_S50000_S50000x1)
        (m ((c : Thread nD τ).loc main_arg3))
        (shapeCast S1x128 (m ((c : Thread nD τ).loc main_arg4)) shapeCasts_S128_S1x128) Regions.zero := by
  refine (W6_arr m ρ c 5).trans ?_
  refine (Regions.final0 (V5 m ρ) c).trans ?_
  show scaledLayer (n := 50000) (d := 128) (h := 128) (V5 m ρ c main_v36) (V5 m ρ c main_v21) (V5 m ρ c main_v20)
    (V5 m ρ c main_arg3) (V5 m ρ c main_v37) Regions.zero = _
  rw [V5_feat m ρ c, V5_sdst m ρ c, V5_ssrc m ρ c, V5_w m ρ c, V5_b m ρ c]

/-- The kernel's result array: the two layers over the two aggregations of the arguments. -/
theorem kernel_result (c : Dev nD) : W8 m ρ c (Proc.devRef .tc main_v52)
    = kernelSpec (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (W8_arr m ρ c 6).trans ?_
  refine (Regions.final1 (V7 m ρ) c).trans ?_
  show classifiedLayer (n := 50000) (d := 128) (h := 128) (c := 40) (V7 m ρ c main_v49) (V7 m ρ c main_v21) (V7 m ρ c main_arg5)
    (V7 m ρ c main_v50) (V7 m ρ c main_arg7) (V7 m ρ c main_v51) Regions.zero = _
  rw [V7_feat m ρ c, V7_sdst m ρ c, V7_w m ρ c, V7_b m ρ c, V7_wf m ρ c, V7_bf m ρ c, region0_result m ρ c]
  rfl

/-- The idealized kernel's run, read: the result at `kernelSpec` of the arguments, the arguments unchanged. -/
theorem kernel_run : θ_run defs (onTc (τ := τ) (main (F := Ideal))) ⟨m, fun _ => 0, ρ⟩ (fun r => ∀ c : Dev nD,
      r.2.mem ((c.tc : Thread nD τ).loc main_v52)
        = kernelSpec (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (kernel_result m ρ c), (h c).2⟩)
    (Cert.KernelIdeal.Named.run_named (F := Ideal) m ρ)

end Kernel

/-! ## The reference's result is the same term -/

section Reference
open Cert.ReferenceIdeal Cert.ReferenceIdeal.Gen

/-- The reference's result term of nine argument arrays is the kernel's `kernelSpec` of them. -/
theorem reference_result (m : (ℓ : Loc nD τ sig) → Buf (Elt Ideal) ℓ) (c : Dev nD) :
    Cert.ReferenceIdeal.ValueP.res_main_v85 (F := Ideal) m c
      = kernelSpec (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  rw [Cert.ReferenceIdeal.RefSide.res_composed,
    Cert.ReferenceIdeal.RefSide.hostLayer2_eq _ _ _ _ _ _ Cert.KernelIdeal.Gen.shapeCasts_S50000_S50000x1 Cert.KernelIdeal.Gen.shapeCasts_S128_S1x128 Cert.KernelIdeal.Gen.shapeCasts_S40_S1x40,
    Cert.ReferenceIdeal.RefSide.hostLayer1_eq _ _ _ _ _ Cert.KernelIdeal.Gen.shapeCasts_S50000_S50000x1 Cert.KernelIdeal.Gen.shapeCasts_S128_S1x128,
    Cert.Proof.SameHostOps.invSqrtDeg_eq, Cert.Proof.SameHostOps.invSqrtDeg_eq, Cert.Proof.SameHostOps.scaledFeatures_eq,
    Cert.Proof.SameHostOps.aggregate_eq, Cert.Proof.SameHostOps.aggregate_eq]
  rfl

end Reference

end Cert.Proof.Bridge

end
-- ==== Proof.lean ====
/-
  The certificate of a two-layer graph convolution with a linear classifier — 50000 nodes, 800000 edges, 128 features,
  40 classes — written as two row-block kernels around host gathers and scatter-adds, against the same network written
  with whole-array host operations.

  Both programs compute, from the edges' endpoints, the same degree normalisations; scale the features by the source
  normalisation; gather them at the edges' sources and sum them at the edges' destinations; scale by the destination
  normalisation, multiply by the first weight, add the bias, clamp at zero and scale by the source normalisation again;
  aggregate that along the same edges; and run the second layer followed by the classifier's product and bias. The kernel
  does the dense steps on ten blocks of 5000 rows, rounds to bf16 before each product and before the second gather, and
  keeps the normalisations as columns and the biases as rows; at the extended reals a rounding is the identity and a
  matrix-unit product into a zero accumulator is the host's product, and every entry of a dense layer depends on its own
  row only, so each region's array is the whole-array layer of the arrays it finds. No algebraic law beyond that is used
  and the precondition is never opened: the two results are one term of the argument arrays, with the gather, the
  scatter-add and the normalisation carried as named functions of the same operands.

  The frames of the two kernel programs are the generated frame certificates; the reference's frame is its run with the
  result dropped; the ideal pass rewrote nothing, so the kernel's idealization is its own text read at the extended reals.
-/
import proofs.«159063_j12859132084712_2_alg».proof.Defs
import proofs.«159063_j12859132084712_2_alg».proof.Proof.Gen.Kernel
import proofs.«159063_j12859132084712_2_alg».proof.Proof.Gen.Kernel.Skeleton
import proofs.«159063_j12859132084712_2_alg».proof.Proof.Gen.Kernel.Launch
import proofs.«159063_j12859132084712_2_alg».proof.Proof.Gen.Kernel.Points
import proofs.«159063_j12859132084712_2_alg».proof.Proof.Gen.Kernel.Frame
import proofs.«159063_j12859132084712_2_alg».proof.Proof.Gen.KernelIdeal
import proofs.«159063_j12859132084712_2_alg».proof.Proof.Gen.KernelIdeal.Skeleton
import proofs.«159063_j12859132084712_2_alg».proof.Proof.Gen.KernelIdeal.Launch
import proofs.«159063_j12859132084712_2_alg».proof.Proof.Gen.KernelIdeal.Points
import proofs.«159063_j12859132084712_2_alg».proof.Proof.Gen.KernelIdeal.Frame
import proofs.«159063_j12859132084712_2_alg».proof.Proof.Gen.ReferenceIdeal
import proofs.«159063_j12859132084712_2_alg».proof.Proof.Gen.Pre_finite_inputs
import proofs.«159063_j12859132084712_2_alg».proof.Proof.RefRun
import proofs.«159063_j12859132084712_2_alg».proof.Proof.Bridge
import Idealize.ShloMosaic.Adequacy
import Idealize.ShloMosaic.Init

noncomputable section

namespace Cert.Proof

open Idealize.ShloMosaic Idealize.SL.Sem

/-- The word-level kernel program runs and leaves its arguments: the generated frame certificate. -/
theorem frame_kernel : Cert.frame_Kernel := fun m ρ _ => Cert.Kernel.Gen.frame m ρ

/-- The idealized kernel program runs and leaves its arguments: the generated frame certificate. -/
theorem frame_kernelIdeal : Cert.frame_KernelIdeal := fun m ρ _ => Cert.KernelIdeal.Gen.frame m ρ

/-- The reference runs and leaves its arguments: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end with the result at the two dense layers over the two
    aggregations of the arguments. -/
theorem algebraic : Cert.algebraic_KernelIdeal_ReferenceIdeal := by
  intro m ρ m' ρ' _ hagree
  refine ⟨_, Cert.Proof.Bridge.kernel_run m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8⟩ := hagree c
  rw [Cert.Proof.Bridge.reference_result m' c, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
